-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S10000x64 : Shape := ⟨2, ![10000, 64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S50000x128 : Shape := ⟨2, ![50000, 128]⟩
abbrev S128 : Shape := ⟨1, ![128]⟩
abbrev S1x128 : Shape := ⟨2, ![1, 128]⟩
abbrev S1x1 : Shape := ⟨2, ![1, 1]⟩
abbrev S10000x128 : Shape := ⟨2, ![10000, 128]⟩
abbrev S1x10000x128 : Shape := ⟨3, ![1, 10000, 128]⟩
abbrev S1 : Shape := ⟨1, ![1]⟩
abbrev S1x1x1 : Shape := ⟨3, ![1, 1, 1]⟩

abbrev nBuf : Space → Nat
  | .hbm => 90
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S50000x128, .f32⟩
  | .hbm, ⟨68, _⟩ => ⟨S128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S50000x128, .f32⟩
  | .hbm, ⟨75, _⟩ => ⟨S1x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S1x1, .f32⟩
  | .hbm, ⟨80, _⟩ => ⟨S1x1, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1x1, .f32⟩
  | .hbm, ⟨88, _⟩ => ⟨S50000x128, .f32⟩
  | .hbm, ⟨89, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x1, .f32⟩
  | .local _ .vmem, ⟨11, _⟩ => ⟨S10000x128, .f32⟩
  | .local _ .vmem, ⟨12, _⟩ => ⟨S10000x128, .f32⟩
  | .local _ .vmem, ⟨13, _⟩ => ⟨S1x1, .f32⟩
  | .local _ .vmem, ⟨14, _⟩ => ⟨S1x1, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S1x1, .f32⟩
  | .local _ .vmem, ⟨21, _⟩ => ⟨S10000x128, .f32⟩
  | .local _ .vmem, ⟨22, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54_0 : Ref sig .tc := ⟨.hbm, 74, rfl⟩
abbrev main_v54_1 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S100000x64_S50000x128 : S100000x64.ShapeCasts S50000x128
  concatenates_S64_S64_S128_d0 : Shape.Concatenates [S64, S64] S128 0
  shapeCasts_S128_S1x128 : S128.ShapeCasts S1x128
  inb_S1x1_S1x1_0_0 : ∀ a, (![0, 0] : Fin 2 → Nat) a + S1x1.size a ≤ S1x1.size a
  h_S1x1 : 0 < S1x1.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S1x1_S1x1 : S1x1.ShapeCasts S1x1
  shapeCasts_S10000x128_S1x10000x128 : S10000x128.ShapeCasts S1x10000x128
  reduces_S1x10000x128_S1 : S1x10000x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  shapeCasts_S_S1x1 : S_.ShapeCasts S1x1
  inpos_S1x1_p0_0 : ∀ a, (![0, 0] : Fin 2 → Nat) a < S1x1.size a
  shapeCasts_S50000x128_S100000x64 : S50000x128.ShapeCasts S100000x64
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54_0) S10000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S64x64, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S64x64_S64x64_1_0 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S_d0_1 : S100000x64.ReducesTo [0, 1] S_
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  @main is eleven segments: stretches of host operations and four pipelined regions (the projection x·Wᵀ, the bias
  add with its running sum, the centred sum of squares, the normalisation with its affine map and clamp at zero).
  Every buffer that is not scoped to a region is held at a known valuation at each segment boundary: the launch
  memory folded through the host stretches, each region replacing its arrays by what its write-backs leave.  Reading
  the last valuation against a final state gives, besides the seven argument arrays as launched, the result buffer
  at the last valuation's contents: this module states exactly that, for any interpretation of the floats.
-/
import proofs.«170983_j88304527606467_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what the last
    boundary's valuation assigns it, and the seven arguments are as launched. -/
theorem run : θ_run defs (onTc (τ := τ) (main (F := F))) ⟨m, fun _ => 0, ρ⟩ (fun r => ∀ c : Dev nD,
      r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Named

end
-- ==== Proof.RefAgg.lean ====
/-
  The edge aggregation shared by the two programs, as one function of the projected features.

  Both programs build, from the edge list and the edge weights, the same sources, targets, weights (self loops
  appended) and the same symmetric normalisation deg^{-1/2}; they then gather the projected features at the
  sources, scale each gathered row by its edge's normalised weight and add the rows up at the targets.  Only the
  projected features differ in how they were computed, so the whole chain is carried as ONE function of them (and of
  the four edge arrays) and never opened.
-/
import proofs.«170983_j88304527606467_2_alg».proof.Proof.Gen.ReferenceIdeal.Read

noncomputable section

namespace Cert.ReferenceIdeal.Whole

open Cert.ReferenceIdeal Cert.ReferenceIdeal.Gen Cert.ReferenceIdeal.Read Idealize.ShloMosaic

variable {F : FTy → Type} [FloatOps F]

/-- A node index as the gather and the scatter take it: a negative index counted from the end, in a column. -/
def wrapIdx (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The aggregation: rows of `xw` gathered at the sources, scaled by dis[src] · w · dis[dst], summed at the targets. -/
def aggC (xw : (⟨S100000x64, .f32⟩ : BufTy).Contents (Elt F)) (src dst : (⟨S1700000, .i32⟩ : BufTy).Contents (Elt F))
    (w : (⟨S1700000, .f32⟩ : BufTy).Contents (Elt F)) (dis : (⟨S100000, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 xw (wrapIdx src))
      (broadcastInDim S1700000x64 ![0, 1] bcast_S1700000x1_S1700000x64_0_1
        (broadcastInDim S1700000x1 ![0] bcast_S1700000_S1700000x1_0
          (mulf (mulf (Host.gather gather_S100000_S1700000x1_S1700000_n_0_n_n_0_1_1 dis (wrapIdx src)) w)
            (Host.gather gather_S100000_S1700000x1_S1700000_n_0_n_n_0_1_1 dis (wrapIdx dst))))))

/-- deg^{-1/2} where the degree is positive, the zero word elsewhere: the reference's own stage. -/
theorem where_ref (x1 : (⟨S2x1600000, .i32⟩ : BufTy).Contents (Elt F)) (x2 : (⟨S1600000, .f32⟩ : BufTy).Contents (Elt F)) :
    select (val_main_v13 (F := F) x1 x2) (val_main_v14 (F := F) x1 x2)
      (broadcastInDim S100000 ![] bcast_S_S100000 (val_main_cst_2 (F := F)))
      = val_main_v15 (F := F) x1 x2 := rfl

/-- The reference's aggregated features are `aggC` of its own projection and edge arrays. -/
theorem agg_ref (x0 : (⟨S100000x64, .f32⟩ : BufTy).Contents (Elt F)) (x1 : (⟨S2x1600000, .i32⟩ : BufTy).Contents (Elt F))
    (x2 : (⟨S1600000, .f32⟩ : BufTy).Contents (Elt F)) (x3 : (⟨S64x64, .f32⟩ : BufTy).Contents (Elt F)) :
    val_main_v46 (F := F) x0 x1 x2 x3
      = aggC (val_main_v33 (F := F) x0 x3) (val_main_v3 (F := F) x1) (val_main_v6 (F := F) x1) (val_main_v8 (F := F) x2) (val_main_v15 (F := F) x1 x2) := rfl

end Cert.ReferenceIdeal.Whole

end
-- ==== Proof.Projection.lean ====
/-
  The first region of the kernel, with its arithmetic taken over the extended reals, read as mathematics.

  The region walks the 100000 rows of its first operand in ten consecutive slabs of 10000 rows.  At each slab it
  multiplies the slab (10000 × 64) by the whole second operand (64 × 64), accumulating into zero, and writes the
  product back as the same slab of the result.  Over the extended reals a product accumulated into zero is the plain
  finite sum, and the ten slabs tile the result, so after the region the result array is the matrix product

      result (p, q) = ∑ k < 64, first (p, k) * second (k, q)        (p < 100000, q < 64)

  of the two operand arrays exactly as the region found them.
-/
import proofs.«170983_j88304527606467_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Projection

open Cert.KernelIdeal Cert.KernelIdeal.Gen Idealize.ShloMosaic Idealize.ShloMosaic.TcCoe Idealize.SL.Sem
open Idealize.ShloMosaic.Pipeline (Dat)
open Idealize.ShloMosaic.ValueIdx

/-! ## One slab: the body's arithmetic at an entry -/

/-- In the slab product the left operand is read at the output's row ... -/
theorem left_row (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- ... and at the shared index as its column; -/
theorem left_col (i : S10000x64.Idx) (s : dot_S10000x64_S64x64_S10000x64_1_0_0_1_n_n.contr.Idx) :
    (dot_S10000x64_S64x64_S10000x64_1_0_0_1_n_n.lhsIdx i s 1).val = (s ⟨0, by decide⟩).val :=
  dot_S10000x64_S64x64_S10000x64_1_0_0_1_n_n.lhsIdx_val_of_single rfl i s

/-- the right operand is read at the shared index as its row ... -/
theorem right_row (i : S10000x64.Idx) (s : dot_S10000x64_S64x64_S10000x64_1_0_0_1_n_n.contr.Idx) :
    (dot_S10000x64_S64x64_S10000x64_1_0_0_1_n_n.rhsIdx i s 0).val = (s ⟨0, by decide⟩).val :=
  dot_S10000x64_S64x64_S10000x64_1_0_0_1_n_n.rhsIdx_val_of_single rfl i s

/-- ... and at the output's column. -/
theorem right_col (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The product of a 10000 × 64 slab and a 64 × 64 matrix accumulated into zero is, entry by entry, the sum over the
    shared index of the products of the entries. -/
theorem slab_product_apply (x0 : Vec Ideal S10000x64 .f32) (x1 : Vec Ideal S64x64 .f32) (r : Fin 10000) (q : Fin 64) :
    k0_pay1 (F := Ideal) x0 x1 (ix2 r q) = ∑ k : Fin 64, x0 (ix2 r k) * x1 (ix2 k q) := by
  unfold k0_pay1
  rw [shapeCast_self]
  refine (Ideal.matmul_constant_zero_apply dot_S10000x64_S64x64_S10000x64_1_0_0_1_n_n none x0 x1 (ix2 r q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q)
      ((contrEquiv1 dot_S10000x64_S64x64_S10000x64_1_0_0_1_n_n 64 rfl rfl).symm k) = ix2 r k := funext fun a => Fin.ext (by
    match a with
    | ⟨0, _⟩ => exact left_row _ _
    | ⟨1, _⟩ => exact (left_col _ _).trans hk)
  have er : dot_S10000x64_S64x64_S10000x64_1_0_0_1_n_n.rhsIdx (ix2 r q)
      ((contrEquiv1 dot_S10000x64_S64x64_S10000x64_1_0_0_1_n_n 64 rfl rfl).symm k) = ix2 k q := funext fun a => Fin.ext (by
    match a with
    | ⟨0, _⟩ => exact (right_row _ _).trans hk
    | ⟨1, _⟩ => exact right_col _ _)
  rw [el, er]

/-! ## The whole array: the matrix product of the two operands -/

/-- The matrix product of a 100000 × 64 array and a 64 × 64 array: entry (p, q) is the sum over the shared index k
    of a (p, k) * b (k, q). -/
def matProduct (a : S100000x64.Idx → Elt Ideal .f32) (b : S64x64.Idx → Elt Ideal .f32) : S100000x64.Idx → Elt Ideal .f32 :=
  fun i => ∑ k : Fin 64, a (ix2 (i 0 : Fin 100000) k) * b (ix2 k (i 1 : Fin 64))

theorem matProduct_apply (a : S100000x64.Idx → Elt Ideal .f32) (b : S64x64.Idx → Elt Ideal .f32) (p : Fin 100000) (q : Fin 64) :
    matProduct a b (ix2 p q) = ∑ k : Fin 64, a (ix2 p k) * b (ix2 k q) := rfl

section Region

variable (V : (c : Dev nD) → (b : Ref sig .tc) → Buf (Elt Ideal) ((c : Thread nD τ).loc b))

theorem zero_offsets : (![0, 0] : Fin 2 → Nat) = fun _ => 0 := funext fun a => by fin_cases a <;> rfl

/-- Where the ten slabs sit: at step t the first operand's and the result's slab is the t-th one along the rows
    and spans all columns; the second operand is taken whole at every step. -/
theorem slab_positions : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (r, k) of the first operand's slab at step t is entry (10000 t + r, k) of the first operand. -/
theorem left_slab_apply (c : Dev nD) (t : Fin cfg0.N) (r : Fin 10000) (k : Fin 64) (p : Fin 100000)
    (hp : p.val = t.val * 10000 + r.val) :
    (iblk0 V c 0 t : Vec Ideal S10000x64 .f32) (ix2 r k) = (V c main_arg0 : S100000x64.Idx → Elt Ideal .f32) (ix2 p k) := by
  obtain ⟨e0, e1, -, -, -, -⟩ := slab_positions t
  unfold iblk0
  show V c main_arg0 (((cfg0.win 0).blk t).view.emb (ix2 r k)) = V c main_arg0 (ix2 p k)
  refine congrArg _ (funext fun a => Fin.ext ?_)
  match a with
  | ⟨0, _⟩ => show win0_0.index t (0 : Fin 2) * 10000 + 1 * r.val = p.val; omega
  | ⟨1, _⟩ => show win0_0.index t (1 : Fin 2) * 64 + 1 * k.val = k.val; omega

/-- The second operand's slab at any step is the second operand. -/
theorem right_slab_apply (c : Dev nD) (t : Fin cfg0.N) (k : Fin 64) (q : Fin 64) :
    (iblk0 V c 1 t : Vec Ideal S64x64 .f32) (ix2 k q) = (V c main_v0 : S64x64.Idx → Elt Ideal .f32) (ix2 k q) := by
  obtain ⟨-, -, e2, e3, -, -⟩ := slab_positions t
  unfold iblk0
  show V c main_v0 (((cfg0.win 1).blk t).view.emb (ix2 k q)) = V c main_v0 (ix2 k q)
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- Entry (r, q) of the result's slab at step t sits at entry (10000 t + r, q) of the result. -/
theorem out_slab_emb (t : Fin cfg0.N) (r : Fin 10000) (q : Fin 64) (p : Fin 100000)
    (hp : p.val = t.val * 10000 + r.val) :
    ((cfg0.win 2).blk t).view.emb (ix2 r q) = (ix2 p q : S100000x64.Idx) := by
  obtain ⟨-, -, -, -, e4, e5⟩ := slab_positions t
  refine funext fun a => Fin.ext ?_
  match a with
  | ⟨0, _⟩ => show win0_2.index t (0 : Fin 2) * 10000 + 1 * r.val = p.val; omega
  | ⟨1, _⟩ => show win0_2.index t (1 : Fin 2) * 64 + 1 * q.val = q.val; omega

/-- What step t writes back is the t-th slab of the matrix product. -/
theorem written_slab_eq (c : Dev nD) (t : Fin cfg0.N) :
    (dat0 (F := Ideal) V c).flushed 2 t
      = ((cfg0.win 2).blk t).view.read (Elt Ideal) (matProduct (V c main_arg0) (V c main_v0)) := by
  show (cfg0.win 2).cut (grid0.coords t) ((dat0 (F := Ideal) V c).after 2 t) = _
  rw [after0_2]
  unfold out0_2
  rw [View.canon_unit_zero zero_offsets]
  simp only [View.ld_unit_zero (S := S10000x64) zero_offsets, View.ld_unit_zero (S := S64x64) zero_offsets]
  funext j
  obtain ⟨r, q, rfl⟩ : ∃ (r : Fin 10000) (q : Fin 64), j = ix2 r q := ⟨j 0, j 1, eq_ix2 j⟩
  have hN : grid0.N = 10 := N_0
  have ht : t.val < 10 := hN ▸ t.isLt
  show k0_pay1 (F := Ideal) (iblk0 V c 0 t) (iblk0 V c 1 t) (ix2 r q)
    = matProduct (V c main_arg0) (V c main_v0) (((cfg0.win 2).blk t).view.emb (ix2 r q))
  rw [out_slab_emb t r q ⟨t.val * 10000 + r.val, by omega⟩ rfl, matProduct_apply]
  refine (slab_product_apply _ _ r q).trans (Finset.sum_congr rfl fun k _ => ?_)
  rw [left_slab_apply V c t r k ⟨t.val * 10000 + r.val, by omega⟩ rfl, right_slab_apply V c t k q]

/-- An entry of the result lies in step t's slab iff, on each axis, its coordinate is within the slab's range. -/
theorem mem_slab (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v1).slice (win0_2.rect t)).set ↔ _
  rw [View.set_slice_whole, Rect.mem_set_unit]
  exact Iff.rfl

/-- The ten slabs tile the result: row p lies in the slab of step p / 10000, and every step writes its slab back. -/
theorem slabs_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 :=
    ⟨⟨(i 0).val / 10000, by show (i 0).val / 10000 < grid0.N; omega⟩, rfl⟩
  obtain ⟨-, -, -, -, e4, e5⟩ := slab_positions t
  refine ⟨t, flush0_2 t, ?_⟩
  rw [mem_slab]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the region the result array is the matrix product of the two operand arrays as the region found them. -/
theorem array_eq (c : Dev nD) :
    (dat0 (F := Ideal) V c).arrAt 2 cfg0.N = matProduct (V c main_arg0) (V c main_v0) :=
  (dat0 (F := Ideal) V c).arrAt_eq_of_cover 2 (matProduct (V c main_arg0) (V c main_v0))
    (fun t _ => written_slab_eq V c t) slabs_cover

/-- Entry by entry: result (p, q) = ∑ k, first (p, k) * second (k, q). -/
theorem final (c : Dev nD) (p : Fin 100000) (q : Fin 64) :
    ((dat0 (F := Ideal) V c).arrAt 2 cfg0.N : S100000x64.Idx → Elt Ideal .f32) (ix2 p q)
      = matProduct (V c main_arg0) (V c main_v0) (ix2 p q) :=
  congrFun (array_eq V c) (ix2 p q)

/-- The same, with the two operand arrays named: if the region finds a and b in them, then
    result (p, q) = ∑ k, a (p, k) * b (k, q). -/
theorem final_sum (c : Dev nD) (a : S100000x64.Idx → Elt Ideal .f32) (b : S64x64.Idx → Elt Ideal .f32)
    (ha : V c main_arg0 = a) (hb : V c main_v0 = b) (p : Fin 100000) (q : Fin 64) :
    ((dat0 (F := Ideal) V c).arrAt 2 cfg0.N : S100000x64.Idx → Elt Ideal .f32) (ix2 p q)
      = ∑ k : Fin 64, a (ix2 p k) * b (ix2 k q) := by
  subst ha hb
  exact final V c p q

end Region

end Cert.KernelIdeal.Projection

end
-- ==== Proof.Walk.lean ====
/-
  The idealized kernel's buffers at the boundaries between its host stretches and its four regions.

  Each stretch of host operations is read over an arbitrary valuation `W` of the buffers it starts from: what it
  computes as its operations' term over `W`, and every buffer it does not write as `W` leaves it.  Chaining the
  stretches with what each region writes back gives every array a region reads, and at last the result buffer, as a
  term over the seven argument arrays and the arrays the regions leave.
-/
import proofs.«170983_j88304527606467_2_alg».proof.Proof.Gen.KernelIdeal.Frame
import proofs.«170983_j88304527606467_2_alg».proof.Proof.RefAgg
import proofs.«170983_j88304527606467_2_alg».proof.Proof.Projection
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Walk

open Cert.KernelIdeal Cert.KernelIdeal.Gen Idealize.ShloMosaic.StableHlo
open Cert.ReferenceIdeal.Read (val_main_v3 val_main_v6 val_main_v8 val_main_v13 val_main_v14 val_main_v15 val_main_cst_2)
open Cert.ReferenceIdeal.Whole (aggC)

/-! ## The stretches, over any starting valuation -/

/-- Before the first region: Wᵀ. -/
theorem s0_v0 (W : Valuation τ sig (Elt Ideal)) : StableHlo.after hostOps0 W (Proc.devRef .tc main_v0)
    = transpose S64x64 [1, 0] (W (Proc.devRef .tc main_arg3)) transposes_S64x64_S64x64_1_0 := by
  after_results
theorem keep0_main_arg0 (W : Valuation τ sig (Elt Ideal)) :
    StableHlo.after hostOps0 W (Proc.devRef .tc main_arg0) = W (Proc.devRef .tc main_arg0) := by
  after_results
theorem keep0_main_arg1 (W : Valuation τ sig (Elt Ideal)) :
    StableHlo.after hostOps0 W (Proc.devRef .tc main_arg1) = W (Proc.devRef .tc main_arg1) := by
  after_results
theorem keep0_main_arg2 (W : Valuation τ sig (Elt Ideal)) :
    StableHlo.after hostOps0 W (Proc.devRef .tc main_arg2) = W (Proc.devRef .tc main_arg2) := by
  after_results
theorem keep0_main_arg4 (W : Valuation τ sig (Elt Ideal)) :
    StableHlo.after hostOps0 W (Proc.devRef .tc main_arg4) = W (Proc.devRef .tc main_arg4) := by
  after_results
theorem keep0_main_arg5 (W : Valuation τ sig (Elt Ideal)) :
    StableHlo.after hostOps0 W (Proc.devRef .tc main_arg5) = W (Proc.devRef .tc main_arg5) := by
  after_results
theorem keep0_main_arg6 (W : Valuation τ sig (Elt Ideal)) :
    StableHlo.after hostOps0 W (Proc.devRef .tc main_arg6) = W (Proc.devRef .tc main_arg6) := by
  after_results

/-- Sources, targets, weights with the self loops appended; the degree's sign test, its rsqrt, the zero word. -/
theorem s1_v5 (W : Valuation τ sig (Elt Ideal)) : StableHlo.after hostOps1 W (Proc.devRef .tc main_v5)
    = val_main_v3 (F := Ideal) (W (Proc.devRef .tc main_arg1)) := by
  after_results_simp
  rfl
theorem s1_v8 (W : Valuation τ sig (Elt Ideal)) : StableHlo.after hostOps1 W (Proc.devRef .tc main_v8)
    = val_main_v6 (F := Ideal) (W (Proc.devRef .tc main_arg1)) := by
  after_results_simp
  rfl
theorem s1_v10 (W : Valuation τ sig (Elt Ideal)) : StableHlo.after hostOps1 W (Proc.devRef .tc main_v10)
    = val_main_v8 (F := Ideal) (W (Proc.devRef .tc main_arg2)) := by
  after_results_simp
  rfl
set_option maxHeartbeats 8000000 in
theorem s1_v15 (W : Valuation τ sig (Elt Ideal)) : StableHlo.after hostOps1 W (Proc.devRef .tc main_v15)
    = val_main_v13 (F := Ideal) (W (Proc.devRef .tc main_arg1)) (W (Proc.devRef .tc main_arg2)) := by
  after_results_simp
  rfl
set_option maxHeartbeats 8000000 in
theorem s1_v16 (W : Valuation τ sig (Elt Ideal)) : StableHlo.after hostOps1 W (Proc.devRef .tc main_v16)
    = val_main_v14 (F := Ideal) (W (Proc.devRef .tc main_arg1)) (W (Proc.devRef .tc main_arg2)) := by
  after_results_simp
  rfl
theorem s1_cst2 (W : Valuation τ sig (Elt Ideal)) : StableHlo.after hostOps1 W (Proc.devRef .tc main_cst_2)
    = val_main_cst_2 (F := Ideal) := by
  after_results_simp
  rfl
theorem keep1_main_v1 (W : Valuation τ sig (Elt Ideal)) :
    StableHlo.after hostOps1 W (Proc.devRef .tc main_v1) = W (Proc.devRef .tc main_v1) := by
  after_results_simp
theorem keep1_main_arg4 (W : Valuation τ sig (Elt Ideal)) :
    StableHlo.after hostOps1 W (Proc.devRef .tc main_arg4) = W (Proc.devRef .tc main_arg4) := by
  after_results_simp
theorem keep1_main_arg5 (W : Valuation τ sig (Elt Ideal)) :
    StableHlo.after hostOps1 W (Proc.devRef .tc main_arg5) = W (Proc.devRef .tc main_arg5) := by
  after_results_simp
theorem keep1_main_arg6 (W : Valuation τ sig (Elt Ideal)) :
    StableHlo.after hostOps1 W (Proc.devRef .tc main_arg6) = W (Proc.devRef .tc main_arg6) := by
  after_results_simp

/-- The select that keeps deg^{-1/2} where the degree is positive. -/
theorem s11_v17 (W : Valuation τ sig (Elt Ideal)) : StableHlo.after hostOps1_1 W (Proc.devRef .tc main_v17)
    = select (W (Proc.devRef .tc main_v15)) (W (Proc.devRef .tc main_v16))
        (broadcastInDim S100000 ![] bcast_S_S100000 (W (Proc.devRef .tc main_cst_2))) := by
  after_results_simp
  rfl
theorem keep11_main_v1 (W : Valuation τ sig (Elt Ideal)) :
    StableHlo.after hostOps1_1 W (Proc.devRef .tc main_v1) = W (Proc.devRef .tc main_v1) := by
  after_results_simp
theorem keep11_main_v5 (W : Valuation τ sig (Elt Ideal)) :
    StableHlo.after hostOps1_1 W (Proc.devRef .tc main_v5) = W (Proc.devRef .tc main_v5) := by
  after_results_simp
theorem keep11_main_v8 (W : Valuation τ sig (Elt Ideal)) :
    StableHlo.after hostOps1_1 W (Proc.devRef .tc main_v8) = W (Proc.devRef .tc main_v8) := by
  after_results_simp
theorem keep11_main_v10 (W : Valuation τ sig (Elt Ideal)) :
    StableHlo.after hostOps1_1 W (Proc.devRef .tc main_v10) = W (Proc.devRef .tc main_v10) := by
  after_results_simp
theorem keep11_main_arg4 (W : Valuation τ sig (Elt Ideal)) :
    StableHlo.after hostOps1_1 W (Proc.devRef .tc main_arg4) = W (Proc.devRef .tc main_arg4) := by
  after_results_simp
theorem keep11_main_arg5 (W : Valuation τ sig (Elt Ideal)) :
    StableHlo.after hostOps1_1 W (Proc.devRef .tc main_arg5) = W (Proc.devRef .tc main_arg5) := by
  after_results_simp
theorem keep11_main_arg6 (W : Valuation τ sig (Elt Ideal)) :
    StableHlo.after hostOps1_1 W (Proc.devRef .tc main_arg6) = W (Proc.devRef .tc main_arg6) := by
  after_results_simp

set_option maxHeartbeats 8000000 in
/-- The aggregation, re-laid lane-dense; the bias, scale and shift rows doubled to 128 lanes. -/
theorem s12_v47 (W : Valuation τ sig (Elt Ideal)) : StableHlo.after hostOps1_2 W (Proc.devRef .tc main_v47)
    = shapeCast S50000x128 (aggC (F := Ideal) (W (Proc.devRef .tc main_v1)) (W (Proc.devRef .tc main_v5)) (W (Proc.devRef .tc main_v8))
        (W (Proc.devRef .tc main_v10)) (W (Proc.devRef .tc main_v17))) shapeCasts_S100000x64_S50000x128 := by
  after_results_simp
  rfl
set_option maxHeartbeats 8000000 in
theorem s12_v49 (W : Valuation τ sig (Elt Ideal)) : StableHlo.after hostOps1_2 W (Proc.devRef .tc main_v49)
    = shapeCast S1x128 (concatenate S128 0 [⟨S64, W (Proc.devRef .tc main_arg4)⟩, ⟨S64, W (Proc.devRef .tc main_arg4)⟩] concatenates_S64_S64_S128_d0) shapeCasts_S128_S1x128 := by
  after_results_simp
  rfl
set_option maxHeartbeats 8000000 in
theorem s12_v51 (W : Valuation τ sig (Elt Ideal)) : StableHlo.after hostOps1_2 W (Proc.devRef .tc main_v51)
    = shapeCast S1x128 (concatenate S128 0 [⟨S64, W (Proc.devRef .tc main_arg5)⟩, ⟨S64, W (Proc.devRef .tc main_arg5)⟩] concatenates_S64_S64_S128_d0) shapeCasts_S128_S1x128 := by
  after_results_simp
  rfl
set_option maxHeartbeats 8000000 in
theorem s12_v53 (W : Valuation τ sig (Elt Ideal)) : StableHlo.after hostOps1_2 W (Proc.devRef .tc main_v53)
    = shapeCast S1x128 (concatenate S128 0 [⟨S64, W (Proc.devRef .tc main_arg6)⟩, ⟨S64, W (Proc.devRef .tc main_arg6)⟩] concatenates_S64_S64_S128_d0) shapeCasts_S128_S1x128 := by
  after_results_simp
  rfl

/-- The mean: the total divided by the entry count, as a 1×1 array. -/
theorem s2_v57 (W : Valuation τ sig (Elt Ideal)) : StableHlo.after hostOps2 W (Proc.devRef .tc main_v57)
    = shapeCast S1x1 (Host.divf (F := Ideal) (shapeCast S_ (W (Proc.devRef .tc main_v54_1)) shapeCasts_S1x1_S_) (constant (F := Ideal) S_ .f32 0x4AC35000#32)) shapeCasts_S_S1x1 := by
  after_results_simp
  rfl
theorem keep2_main_v54_0 (W : Valuation τ sig (Elt Ideal)) :
    StableHlo.after hostOps2 W (Proc.devRef .tc main_v54_0) = W (Proc.devRef .tc main_v54_0) := by
  after_results_simp
theorem keep2_main_v51 (W : Valuation τ sig (Elt Ideal)) :
    StableHlo.after hostOps2 W (Proc.devRef .tc main_v51) = W (Proc.devRef .tc main_v51) := by
  after_results_simp
theorem keep2_main_v53 (W : Valuation τ sig (Elt Ideal)) :
    StableHlo.after hostOps2 W (Proc.devRef .tc main_v53) = W (Proc.devRef .tc main_v53) := by
  after_results_simp

/-- The reciprocal standard deviation, as a 1×1 array. -/
theorem s3_v63 (W : Valuation τ sig (Elt Ideal)) : StableHlo.after hostOps3 W (Proc.devRef .tc main_v63)
    = shapeCast S1x1 (Host.rsqrt (F := Ideal) (addf (Host.divf (F := Ideal) (shapeCast S_ (W (Proc.devRef .tc main_v58)) shapeCasts_S1x1_S_) (constant (F := Ideal) S_ .f32 0x4AC35000#32))
        (constant (F := Ideal) S_ .f32 0x3727C5AC#32))) shapeCasts_S_S1x1 := by
  after_results_simp
  rfl
theorem keep3_main_v54_0 (W : Valuation τ sig (Elt Ideal)) :
    StableHlo.after hostOps3 W (Proc.devRef .tc main_v54_0) = W (Proc.devRef .tc main_v54_0) := by
  after_results_simp
theorem keep3_main_v57 (W : Valuation τ sig (Elt Ideal)) :
    StableHlo.after hostOps3 W (Proc.devRef .tc main_v57) = W (Proc.devRef .tc main_v57) := by
  after_results_simp
theorem keep3_main_v51 (W : Valuation τ sig (Elt Ideal)) :
    StableHlo.after hostOps3 W (Proc.devRef .tc main_v51) = W (Proc.devRef .tc main_v51) := by
  after_results_simp
theorem keep3_main_v53 (W : Valuation τ sig (Elt Ideal)) :
    StableHlo.after hostOps3 W (Proc.devRef .tc main_v53) = W (Proc.devRef .tc main_v53) := by
  after_results_simp

/-- The result: the normalised array re-laid as 100000 rows of 64 features. -/
theorem s4_v65 (W : Valuation τ sig (Elt Ideal)) : StableHlo.after hostOps4 W (Proc.devRef .tc main_v65)
    = shapeCast S100000x64 (W (Proc.devRef .tc main_v64)) shapeCasts_S50000x128_S100000x64 := by
  after_results_simp
  rfl

/-! ## The arrays each region finds, and the result buffer -/

section Reads

variable (m : (ℓ : Loc nD τ sig) → Buf (Elt Ideal) ℓ) (ρ : Dev nD → PrngReg) (c : Dev nD)

/-- The first region finds the features as launched and Wᵀ. -/
theorem v1_x : V1 m ρ c main_arg0 = (m ((c : Thread nD τ).loc main_arg0)) := by
  show StableHlo.after hostOps0 (W0 m ρ c) (Proc.devRef .tc main_arg0) = _
  rw [keep0_main_arg0]
theorem v1_wt : V1 m ρ c main_v0 = transpose S64x64 [1, 0] (m ((c : Thread nD τ).loc main_arg3)) transposes_S64x64_S64x64_1_0 := by
  show StableHlo.after hostOps0 (W0 m ρ c) (Proc.devRef .tc main_v0) = _
  rw [s0_v0]

/-- The projected features x · Wᵀ. -/
def projected : S100000x64.Idx → Elt Ideal .f32 :=
  Cert.KernelIdeal.Projection.matProduct (m ((c : Thread nD τ).loc main_arg0)) (transpose S64x64 [1, 0] (m ((c : Thread nD τ).loc main_arg3)) transposes_S64x64_S64x64_1_0)

/-- The first region leaves them in its output array. -/
theorem w2_xw : W2 m ρ c (Proc.devRef .tc main_v1) = projected m c :=
  (W2_arr m ρ c 2).trans ((Cert.KernelIdeal.Projection.array_eq (V1 m ρ) c).trans
    (congrArg₂ Cert.KernelIdeal.Projection.matProduct (v1_x m ρ c) (v1_wt m ρ c)))

theorem w2_arg1 : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    rw [keep0_main_arg1])
theorem w2_arg2 : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    rw [keep0_main_arg2])
theorem w2_arg4 : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    rw [keep0_main_arg4])
theorem w2_arg5 : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    rw [keep0_main_arg5])
theorem w2_arg6 : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    rw [keep0_main_arg6])

/-- The second region finds the aggregated features lane-dense … -/
theorem v5_agg : V5 m ρ c main_v47
    = shapeCast S50000x128 (aggC (F := Ideal) (projected m c) (val_main_v3 (F := Ideal) (m ((c : Thread nD τ).loc main_arg1))) (val_main_v6 (F := Ideal) (m ((c : Thread nD τ).loc main_arg1)))
        (val_main_v8 (F := Ideal) (m ((c : Thread nD τ).loc main_arg2))) (val_main_v15 (F := Ideal) (m ((c : Thread nD τ).loc main_arg1)) (m ((c : Thread nD τ).loc main_arg2)))) shapeCasts_S100000x64_S50000x128 := by
  show StableHlo.after hostOps1_2 (StableHlo.after hostOps1_1 (StableHlo.after hostOps1 (W2 m ρ c))) (Proc.devRef .tc main_v47) = _
  rw [s12_v47, keep11_main_v1, keep1_main_v1, keep11_main_v5, s1_v5, keep11_main_v8, s1_v8, keep11_main_v10, s1_v10,
    s11_v17, s1_v15, s1_v16, s1_cst2, w2_xw, w2_arg1, w2_arg2]
  rfl

/-- … and the bias row doubled to 128 lanes. -/
theorem v5_bias : V5 m ρ c main_v49 = shapeCast S1x128 (concatenate S128 0 [⟨S64, (m ((c : Thread nD τ).loc main_arg4))⟩, ⟨S64, (m ((c : Thread nD τ).loc main_arg4))⟩] concatenates_S64_S64_S128_d0) shapeCasts_S128_S1x128 := by
  show StableHlo.after hostOps1_2 (StableHlo.after hostOps1_1 (StableHlo.after hostOps1 (W2 m ρ c))) (Proc.devRef .tc main_v49) = _
  rw [s12_v49, keep11_main_arg4, keep1_main_arg4, w2_arg4]

theorem w5_scale : W5 m ρ c (Proc.devRef .tc main_v51) = shapeCast S1x128 (concatenate S128 0 [⟨S64, (m ((c : Thread nD τ).loc main_arg5))⟩, ⟨S64, (m ((c : Thread nD τ).loc main_arg5))⟩] concatenates_S64_S64_S128_d0) shapeCasts_S128_S1x128 := by
  show StableHlo.after hostOps1_2 (StableHlo.after hostOps1_1 (StableHlo.after hostOps1 (W2 m ρ c))) (Proc.devRef .tc main_v51) = _
  rw [s12_v51, keep11_main_arg5, keep1_main_arg5, w2_arg5]
theorem w5_shift : W5 m ρ c (Proc.devRef .tc main_v53) = shapeCast S1x128 (concatenate S128 0 [⟨S64, (m ((c : Thread nD τ).loc main_arg6))⟩, ⟨S64, (m ((c : Thread nD τ).loc main_arg6))⟩] concatenates_S64_S64_S128_d0) shapeCasts_S128_S1x128 := by
  show StableHlo.after hostOps1_2 (StableHlo.after hostOps1_1 (StableHlo.after hostOps1 (W2 m ρ c))) (Proc.devRef .tc main_v53) = _
  rw [s12_v53, keep11_main_arg6, keep1_main_arg6, w2_arg6]

/-- The second region leaves the biased array and the 1×1 total. -/
theorem w6_biased : W6 m ρ c (Proc.devRef .tc main_v54_0) = (dat1 (V5 m ρ) c).arrAt 2 cfg1.N := W6_arr m ρ c 2
theorem w6_total : W6 m ρ c (Proc.devRef .tc main_v54_1) = (dat1 (V5 m ρ) c).arrAt 3 cfg1.N := W6_arr m ρ c 3
theorem w6_scale : W6 m ρ c (Proc.devRef .tc main_v51) = shapeCast S1x128 (concatenate S128 0 [⟨S64, (m ((c : Thread nD τ).loc main_arg5))⟩, ⟨S64, (m ((c : Thread nD τ).loc main_arg5))⟩] concatenates_S64_S64_S128_d0) shapeCasts_S128_S1x128 :=
  (W6_of_ne m ρ c main_v51 (by decide)).trans (w5_scale m ρ c)
theorem w6_shift : W6 m ρ c (Proc.devRef .tc main_v53) = shapeCast S1x128 (concatenate S128 0 [⟨S64, (m ((c : Thread nD τ).loc main_arg6))⟩, ⟨S64, (m ((c : Thread nD τ).loc main_arg6))⟩] concatenates_S64_S64_S128_d0) shapeCasts_S128_S1x128 :=
  (W6_of_ne m ρ c main_v53 (by decide)).trans (w5_shift m ρ c)

/-- The third region finds the biased array and the mean. -/
theorem v7_biased : V7 m ρ c main_v54_0 = (dat1 (V5 m ρ) c).arrAt 2 cfg1.N := by
  show StableHlo.after hostOps2 (W6 m ρ c) (Proc.devRef .tc main_v54_0) = _
  rw [keep2_main_v54_0, w6_biased]
theorem v7_mean : V7 m ρ c main_v57
    = shapeCast S1x1 (Host.divf (F := Ideal) (shapeCast S_ ((dat1 (V5 m ρ) c).arrAt 3 cfg1.N) shapeCasts_S1x1_S_) (constant (F := Ideal) S_ .f32 0x4AC35000#32)) shapeCasts_S_S1x1 := by
  show StableHlo.after hostOps2 (W6 m ρ c) (Proc.devRef .tc main_v57) = _
  rw [s2_v57, w6_total]
theorem w7_scale : W7 m ρ c (Proc.devRef .tc main_v51) = shapeCast S1x128 (concatenate S128 0 [⟨S64, (m ((c : Thread nD τ).loc main_arg5))⟩, ⟨S64, (m ((c : Thread nD τ).loc main_arg5))⟩] concatenates_S64_S64_S128_d0) shapeCasts_S128_S1x128 := by
  show StableHlo.after hostOps2 (W6 m ρ c) (Proc.devRef .tc main_v51) = _
  rw [keep2_main_v51, w6_scale]
theorem w7_shift : W7 m ρ c (Proc.devRef .tc main_v53) = shapeCast S1x128 (concatenate S128 0 [⟨S64, (m ((c : Thread nD τ).loc main_arg6))⟩, ⟨S64, (m ((c : Thread nD τ).loc main_arg6))⟩] concatenates_S64_S64_S128_d0) shapeCasts_S128_S1x128 := by
  show StableHlo.after hostOps2 (W6 m ρ c) (Proc.devRef .tc main_v53) = _
  rw [keep2_main_v53, w6_shift]

/-- The third region leaves its two inputs as it found them and the 1×1 centred sum of squares. -/
theorem w8_biased : W8 m ρ c (Proc.devRef .tc main_v54_0) = (dat1 (V5 m ρ) c).arrAt 2 cfg1.N :=
  (W8_arr m ρ c 0).trans (((dat2 (V7 m ρ) c).arrAt_in 0 rfl _).trans ((A_eq2 (V7 m ρ) c 0).trans (v7_biased m ρ c)))
theorem w8_mean : W8 m ρ c (Proc.devRef .tc main_v57) = V7 m ρ c main_v57 :=
  (W8_arr m ρ c 1).trans (((dat2 (V7 m ρ) c).arrAt_in 1 rfl _).trans (A_eq2 (V7 m ρ) c 1))
theorem w8_squares : W8 m ρ c (Proc.devRef .tc main_v58) = (dat2 (V7 m ρ) c).arrAt 2 cfg2.N := W8_arr m ρ c 2
theorem w8_scale : W8 m ρ c (Proc.devRef .tc main_v51) = shapeCast S1x128 (concatenate S128 0 [⟨S64, (m ((c : Thread nD τ).loc main_arg5))⟩, ⟨S64, (m ((c : Thread nD τ).loc main_arg5))⟩] concatenates_S64_S64_S128_d0) shapeCasts_S128_S1x128 :=
  (W8_of_ne m ρ c main_v51 (by decide)).trans (w7_scale m ρ c)
theorem w8_shift : W8 m ρ c (Proc.devRef .tc main_v53) = shapeCast S1x128 (concatenate S128 0 [⟨S64, (m ((c : Thread nD τ).loc main_arg6))⟩, ⟨S64, (m ((c : Thread nD τ).loc main_arg6))⟩] concatenates_S64_S64_S128_d0) shapeCasts_S128_S1x128 :=
  (W8_of_ne m ρ c main_v53 (by decide)).trans (w7_shift m ρ c)

/-- The fourth region finds the biased array, the mean, the reciprocal standard deviation, the scale and shift rows. -/
theorem v9_biased : V9 m ρ c main_v54_0 = (dat1 (V5 m ρ) c).arrAt 2 cfg1.N := by
  show StableHlo.after hostOps3 (W8 m ρ c) (Proc.devRef .tc main_v54_0) = _
  rw [keep3_main_v54_0, w8_biased]
theorem v9_mean : V9 m ρ c main_v57 = V7 m ρ c main_v57 := by
  show StableHlo.after hostOps3 (W8 m ρ c) (Proc.devRef .tc main_v57) = _
  rw [keep3_main_v57, w8_mean]
theorem v9_inv : V9 m ρ c main_v63
    = shapeCast S1x1 (Host.rsqrt (F := Ideal) (addf (Host.divf (F := Ideal) (shapeCast S_ ((dat2 (V7 m ρ) c).arrAt 2 cfg2.N) shapeCasts_S1x1_S_) (constant (F := Ideal) S_ .f32 0x4AC35000#32))
        (constant (F := Ideal) S_ .f32 0x3727C5AC#32))) shapeCasts_S_S1x1 := by
  show StableHlo.after hostOps3 (W8 m ρ c) (Proc.devRef .tc main_v63) = _
  rw [s3_v63, w8_squares]
theorem v9_scale : V9 m ρ c main_v51 = shapeCast S1x128 (concatenate S128 0 [⟨S64, (m ((c : Thread nD τ).loc main_arg5))⟩, ⟨S64, (m ((c : Thread nD τ).loc main_arg5))⟩] concatenates_S64_S64_S128_d0) shapeCasts_S128_S1x128 := by
  show StableHlo.after hostOps3 (W8 m ρ c) (Proc.devRef .tc main_v51) = _
  rw [keep3_main_v51, w8_scale]
theorem v9_shift : V9 m ρ c main_v53 = shapeCast S1x128 (concatenate S128 0 [⟨S64, (m ((c : Thread nD τ).loc main_arg6))⟩, ⟨S64, (m ((c : Thread nD τ).loc main_arg6))⟩] concatenates_S64_S64_S128_d0) shapeCasts_S128_S1x128 := by
  show StableHlo.after hostOps3 (W8 m ρ c) (Proc.devRef .tc main_v53) = _
  rw [keep3_main_v53, w8_shift]

/-- The result buffer: what the fourth region leaves, re-laid as 100000 rows of 64 features. -/
theorem result_buf : W11 m ρ c (Proc.devRef .tc main_v65)
    = shapeCast S100000x64 ((dat3 (V9 m ρ) c).arrAt 5 cfg3.N) shapeCasts_S50000x128_S100000x64 := by
  show StableHlo.after hostOps4 (W10 m ρ c) (Proc.devRef .tc main_v65) = _
  rw [s4_v65]
  exact congrArg (fun T => shapeCast S100000x64 T shapeCasts_S50000x128_S100000x64) (W10_arr m ρ c 5)

end Reads

end Cert.KernelIdeal.Walk

end
-- ==== Proof.LibTiles.lean ====
/-
  Sums over an index set cut into equal tiles.
-/
import Mathlib.Algebra.BigOperators.Fin
import Mathlib.Logic.Equiv.Fin.Basic

namespace Cert.LibTiles

/-- Entry `q` of tile `k`, among `K` tiles of `T` entries each, counted from the start: `k · T + q`. -/
def tileIdx {K T : Nat} (k : Fin K) (q : Fin T) : Fin (K * T) :=
  ⟨k.val * T + q.val, by
    have h1 : k.val * T + T ≤ K * T := by
      have := Nat.mul_le_mul_right T (Nat.succ_le_of_lt k.isLt)
      rwa [Nat.succ_mul] at this
    have := q.isLt
    omega⟩

/-- A sum over `K · T` entries is the sum over the tiles of the sums inside each tile. -/
theorem sum_tiles {M : Type*} [AddCommMonoid M] {K T : Nat} (f : Fin (K * T) → M) :
    ∑ k : Fin K, ∑ q : Fin T, f (tileIdx k q) = ∑ n : Fin (K * T), f n := by
  rw [← Equiv.sum_comp finProdFinEquiv f, Fintype.sum_prod_type]
  refine Finset.sum_congr rfl fun k _ => Finset.sum_congr rfl fun q _ => congrArg f (Fin.ext ?_)
  show k.val * T + q.val = q.val + T * k.val
  rw [Nat.add_comm, Nat.mul_comm]

/-- The same for 262144 entries cut into 8 tiles of 32768. -/
theorem sum_tiles_grid {M : Type*} [AddCommMonoid M] (f : Fin 262144 → M) :
    ∑ k : Fin 8, ∑ q : Fin 32768, f ⟨k.val * 32768 + q.val, by have := k.isLt; have := q.isLt; omega⟩
      = ∑ n : Fin 262144, f n := by
  have h : 8 * 32768 = 262144 := by decide
  rw [← Equiv.sum_comp (finCongr h) f, ← sum_tiles (K := 8) (T := 32768) fun n => f (finCongr h n)]
  exact Finset.sum_congr rfl fun k _ => Finset.sum_congr rfl fun q _ => congrArg f (Fin.ext rfl)

end Cert.LibTiles
-- ==== Proof.LibConcatRead.lean ====
/-
  A concatenation read at an index: SOME piece of the list holds the index's coordinate along the axis, and the
  concatenation there is that piece read at the same coordinates off the axis and, on the axis, at the coordinate
  less the extents of the pieces before it.
-/
import Idealize.ShloMosaic.Lib.Pipeline.Value

noncomputable section

namespace Cert.ConcatRead

open Idealize.ShloMosaic

/-- Where a position falls among sizes laid end to end: the sizes before its piece and its offset in the piece add
    up to the position. -/
theorem locate_spec' : ∀ (ns : List Nat) (c : Nat) (h : c < ns.sum) (kr : (k : Fin ns.length) × Fin ns[k]),
    locate ns c h = kr → (ns.take kr.1.val).sum + kr.2.val = c
  | [], _, h, _, _ => absurd h (Nat.not_lt_zero _)
  | n :: ns, c, h, kr, hkr => by
    rw [locate] at hkr
    split at hkr
    · subst hkr; simp
    · next hc =>
      subst hkr
      have ih := locate_spec' ns (c - n) (by rw [List.sum_cons] at h; omega) _ rfl
      simp only [Fin.val_succ, List.take_succ_cons, List.sum_cons]
      omega

theorem locate_spec (ns : List Nat) (c : Nat) (h : c < ns.sum) :
    (ns.take (locate ns c h).1.val).sum + (locate ns c h).2.val = c := locate_spec' ns c h _ rfl

variable {α : Type}

/-- The concatenation of `xs` along axis `a`, read at `j`, is one of the pieces read at an index that agrees with
    `j` off the axis and sits, on the axis, at `j`'s coordinate less the extents of the earlier pieces. -/
theorem concat_read {t : Shape} (a : Fin t.rank) (xs : List ((s : Shape) × (s.Idx → α)))
    (h : Shape.Concatenates (xs.map (·.1)) t a) (j : t.Idx) :
    ∃ (k : Nat) (hk : k < xs.length) (hr : (xs[k]).1.rank = t.rank) (i : (xs[k]).1.Idx),
      concatenate t a xs h j = (xs[k]).2 i
      ∧ (∀ b : Fin (xs[k]).1.rank, b.cast hr ≠ a → (i b).val = (j (b.cast hr)).val)
      ∧ (((xs.take k).map (·.1)).map fun s => if h : s.rank = t.rank then s.size (a.cast h.symm) else 0).sum
          + (i (a.cast hr.symm)).val = (j a).val := by
  let ns : List Nat := (xs.map (·.1)).map fun s => if h : s.rank = t.rank then s.size (a.cast h.symm) else 0
  have PF : (j a).val < ns.sum := by rw [h.2.2]; exact (j a).isLt
  let kr := locate ns (j a).val PF
  have hk : kr.1.val < xs.length := by simpa [ns] using kr.1.isLt
  have hp : (xs[kr.1.val]).1 ∈ xs.map (·.1) := List.mem_map.2 ⟨xs[kr.1.val], List.getElem_mem hk, rfl⟩
  have hr : (xs[kr.1.val]).1.rank = t.rank := (h.2.1 _ hp).1
  have hns : ns[kr.1.val]'(by simpa [ns] using hk) = (xs[kr.1.val]).1.size (a.cast hr.symm) := by
    simp [ns, dif_pos hr]
  refine ⟨kr.1.val, hk, hr, fun b =>
      if hb : b.cast hr = a then
        kr.2.cast (by rw [Fin.getElem_fin, hns, ← hb]; rfl)
      else (j (b.cast hr)).cast ((h.2.1 _ hp).2 (b.cast hr) hb).symm, rfl, ?_, ?_⟩
  · intro b hb
    beta_reduce
    rw [dif_neg hb]; rfl
  · have hs := locate_spec ns (j a).val PF
    beta_reduce
    rw [dif_pos (show (a.cast hr.symm).cast hr = a from rfl)]
    have e : (((xs.take kr.1.val).map (·.1)).map fun s => if h : s.rank = t.rank then s.size (a.cast h.symm) else 0)
        = ns.take kr.1.val := by simp only [ns, List.map_take]
    rw [e]
    exact hs

end Cert.ConcatRead

end
-- ==== Proof.LaneSums.lean ====
/-
  Sums over the lane-dense array of 50000 rows of 128 lanes, and over its re-laying as 100000 rows of 64 features.

  Nothing here depends on the values: every statement holds in any commutative additive monoid (the extended reals
  in particular, where addition stays associative and commutative at the infinities).
-/
import Idealize.ShloMosaic.Lib.Pipeline.Value
import Idealize.ShloMosaic.Lib.ValueIdx
import proofs.«170983_j88304527606467_2_alg».proof.Proof.LibTiles
import proofs.«170983_j88304527606467_2_alg».proof.Proof.LibConcatRead
import Idealize.ShloMosaic.Lib.ValueLayout

noncomputable section

namespace Cert.LaneSums

open Idealize.ShloMosaic ValueIdx

/-- The sum of the whole array is the sum over its five blocks of 10000 rows of each block's sum. -/
theorem sum_row_blocks {M : Type*} [AddCommMonoid M] (f : (⟨2, ![50000, 128]⟩ : Shape).Idx → M) :
    ∑ t : Fin 5, ∑ r : Fin 10000, ∑ q : Fin 128,
        f (ix2 (⟨t.val * 10000 + r.val, by have := t.isLt; have := r.isLt; omega⟩ : Fin 50000) q) = ∑ i, f i := by
  have h : 5 * 10000 = 50000 := by decide
  rw [sum_idx2 f, ← Equiv.sum_comp (finCongr h) (fun a => ∑ q : Fin 128, f (ix2 a q)),
    ← Cert.LibTiles.sum_tiles (K := 5) (T := 10000) fun n => ∑ q : Fin 128, f (ix2 (finCongr h n) q)]
  exact Finset.sum_congr rfl fun k _ => Finset.sum_congr rfl fun r _ => Finset.sum_congr rfl fun q _ =>
    congrArg f (congrArg (fun a => ix2 a q) (Fin.ext rfl))

/-- Five terms added one after the other onto a start are the start plus their sum. -/
theorem chain5 {M : Type*} [AddCommMonoid M] (z : M) (s : Fin 5 → M) :
    ((((z + s 0) + s 1) + s 2) + s 3) + s 4 = z + ∑ t, s t := by
  rw [Fin.sum_univ_five]; simp only [add_assoc]

/-- Re-laying an array in another shape keeps the sum of its entries: the re-laying is a bijection of the indices. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- Entry (i, f) of 100000 × 64 and entry (p, q) of 50000 × 128 at the same row-major position: the lane `q` is
    the feature `f` in the lower or the upper half of the lanes, so `f = q % 64`.  Read from the lane-dense side: -/
theorem feature_of_lane (h : (⟨2, ![50000, 128]⟩ : Shape).numel = (⟨2, ![100000, 64]⟩ : Shape).numel)
    (j : (⟨2, ![50000, 128]⟩ : Shape).Idx) : ((Shape.reshapeEquiv h j) 1).val = (j 1).val % 64 := by
  have e := Shape.rowMajor_reshapeEquiv h j
  rw [Shape.rowMajor_val_two, Shape.rowMajor_val_two] at e
  have b1 : ((Shape.reshapeEquiv h j) 1).val < 64 := ((Shape.reshapeEquiv h j) 1).isLt
  have b2 : (j 1).val < 128 := (j 1).isLt
  have e' : ((Shape.reshapeEquiv h j) 0).val * 64 + ((Shape.reshapeEquiv h j) 1).val = (j 0).val * 128 + (j 1).val := e
  omega

/-- … and from the side of the features. -/
theorem lane_of_feature (h : (⟨2, ![100000, 64]⟩ : Shape).numel = (⟨2, ![50000, 128]⟩ : Shape).numel)
    (i : (⟨2, ![100000, 64]⟩ : Shape).Idx) : ((Shape.reshapeEquiv h i) 1).val % 64 = (i 1).val := by
  have e := Shape.rowMajor_reshapeEquiv h i
  rw [Shape.rowMajor_val_two, Shape.rowMajor_val_two] at e
  have b1 : ((Shape.reshapeEquiv h i) 1).val < 128 := ((Shape.reshapeEquiv h i) 1).isLt
  have b2 : (i 1).val < 64 := (i 1).isLt
  have e' : ((Shape.reshapeEquiv h i) 0).val * 128 + ((Shape.reshapeEquiv h i) 1).val = (i 0).val * 64 + (i 1).val := e
  omega

/-- A row of 64 entries laid twice end to end reads, at lane `q`, entry `q % 64` of the row. -/
theorem doubled_row {α : Type} (a : (⟨1, ![64]⟩ : Shape).Idx → α)
    (hc : Shape.Concatenates ([(⟨(⟨1, ![64]⟩ : Shape), a⟩ : (s : Shape) × (s.Idx → α)), ⟨(⟨1, ![64]⟩ : Shape), a⟩].map (·.1)) ⟨1, ![128]⟩ 0)
    (q : Fin 128) :
    concatenate ⟨1, ![128]⟩ 0 [⟨(⟨1, ![64]⟩ : Shape), a⟩, ⟨(⟨1, ![64]⟩ : Shape), a⟩] hc (ix1 q)
      = a (ix1 (⟨q.val % 64, Nat.mod_lt _ (by decide)⟩ : Fin 64)) := by
  obtain ⟨k, hk, hr, i, hv, -, hs⟩ := Cert.ConcatRead.concat_read (0 : Fin 1)
    [(⟨(⟨1, ![64]⟩ : Shape), a⟩ : (s : Shape) × (s.Idx → α)), ⟨(⟨1, ![64]⟩ : Shape), a⟩] hc (ix1 q)
  rw [hv]
  have hk2 : k < 2 := hk
  have hq : q.val < 128 := q.isLt
  interval_cases k
  · let i' : (⟨1, ![64]⟩ : Shape).Idx := i
    have hi : (i' 0).val < 64 := (i' 0).isLt
    have hs' : 0 + (i' 0).val = q.val := hs
    show a i' = _
    exact congrArg a (funext fun d => match d with | ⟨0, _⟩ => Fin.ext (by show (i' 0).val = q.val % 64; omega))
  · let i' : (⟨1, ![64]⟩ : Shape).Idx := i
    have hi : (i' 0).val < 64 := (i' 0).isLt
    have hs' : 64 + (i' 0).val = q.val := hs
    show a i' = _
    exact congrArg a (funext fun d => match d with | ⟨0, _⟩ => Fin.ext (by show (i' 0).val = q.val % 64; omega))

/-- The same row, doubled and laid as one row of 128 lanes. -/
theorem doubled_row_lane {α : Type} (a : (⟨1, ![64]⟩ : Shape).Idx → α)
    (hc : Shape.Concatenates ([(⟨(⟨1, ![64]⟩ : Shape), a⟩ : (s : Shape) × (s.Idx → α)), ⟨(⟨1, ![64]⟩ : Shape), a⟩].map (·.1)) ⟨1, ![128]⟩ 0)
    (hs : (⟨1, ![128]⟩ : Shape).ShapeCasts ⟨2, ![1, 128]⟩) (q : Fin 128) :
    shapeCast ⟨2, ![1, 128]⟩ (concatenate ⟨1, ![128]⟩ 0 [⟨(⟨1, ![64]⟩ : Shape), a⟩, ⟨(⟨1, ![64]⟩ : Shape), a⟩] hc) hs (ix2 (0 : Fin 1) q)
      = a (ix1 (⟨q.val % 64, Nat.mod_lt _ (by decide)⟩ : Fin 64)) :=
  (shapeCast_a_1a_apply _ hs (0 : Fin 1) q).trans (doubled_row a hc q)

end Cert.LaneSums

end
-- ==== Proof.BiasSum.lean ====
/-
  The second region: the bias row is added to every row of the lane-dense array of aggregated features, and the
  sum of all the biased entries is accumulated across the five row blocks.

  The array has 50000 rows of 128 lanes and is visited in five blocks of 10000 rows.  At each block the body stores
  block + (bias row broadcast down the rows) into the biased output's block, and adds the block's total to a 1×1
  accumulator that is reset to the zero word at the first block and written back after the last.  So the biased
  array ends at  a[p, q] + bias[0, q]  entry by entry, and the 1×1 array at
      ((((z + s₀) + s₁) + s₂) + s₃) + s₄ ,   sₜ the total of block t of the biased array, z the zero word,
  which over the extended reals is  z + (the sum of every biased entry)  — addition there is associative and
  commutative, infinities included.
-/
import proofs.«170983_j88304527606467_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«170983_j88304527606467_2_alg».proof.Proof.LaneSums

noncomputable section

open Idealize.ShloMosaic Idealize.ShloMosaic.TcCoe Idealize.SL.Sem
open Idealize.ShloMosaic.Pipeline (Dat)

namespace Cert.KernelIdeal.BiasSum

open Cert.KernelIdeal Cert.KernelIdeal.Gen ValueIdx

theorem hz : (![0, 0] : Fin 2 → Nat) = fun _ => 0 := funext fun a => by fin_cases a <;> rfl

/-! ## What each control case leaves in the two output buffers, for any floats -/

section Pieces

variable {F : FTy → Type} [FloatOps F]

/-- First block: the biased block is block + bias row. -/
theorem first_biased (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x1 .f32) (h4 : a4.IsWhole) (hc : cond1_0 i)
    (x0 : Vec F S10000x128 .f32) (x1 : Vec F S1x128 .f32) :
    out1_A_2 c i a1 h1 a2 h2 a3 h3 a4 h4 hc x0 x1 = k1_pay2 x0 x1 := by
  unfold out1_A_2
  rw [View.read_writes_eq_canon _ _ _ (cover1_A_2 c i a1 h1 a2 h2 a3 h3 a4 h4 hc x0 x1)]
  unfold kernelRun1_A
  dsimp only
  rw [View.canon_unit_zero hz]
  simp only [View.readAt_eq_ld, h1.read_unread, h2.read_unread, View.ld_unit_zero (S := S10000x128) hz, View.ld_unit_zero (S := S1x128) hz]

/-- First block: the accumulator is reset to the zero word and the block's total added to it. -/
theorem first_total (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x1 .f32) (h4 : a4.IsWhole) (hc : cond1_0 i)
    (x0 : Vec F S10000x128 .f32) (x1 : Vec F S1x128 .f32) :
    out1_A_3 c i a1 h1 a2 h2 a3 h3 a4 h4 hc x0 x1 = k1_pay3 x0 x1 (k1_pay1 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x1) hz, View.readCov_unit_zero (S := S1x1) _ hz]
  simp only [View.readAt_eq_ld, h1.read_unread, h2.read_unread, View.ld_unit_zero (S := S10000x128) hz, View.ld_unit_zero (S := S1x128) hz, View.ld_unit_zero (S := S1x1) hz]

/-- Later blocks: the biased block is again block + bias row. -/
theorem later_biased (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x1 .f32) (h4 : a4.IsWhole) (hc : ¬cond1_0 i)
    (x0 : Vec F S10000x128 .f32) (x1 : Vec F S1x128 .f32) (xo : Vec F S1x1 .f32) :
    out1_B_2 c i a1 h1 a2 h2 a3 h3 a4 h4 hc x0 x1 xo = k1_pay2 x0 x1 := by
  unfold out1_B_2
  rw [View.read_writes_eq_canon _ _ _ (cover1_B_2 c i a1 h1 a2 h2 a3 h3 a4 h4 hc x0 x1 xo)]
  unfold kernelRun1_B
  dsimp only
  rw [View.canon_unit_zero hz]
  simp only [View.readAt_eq_ld, h1.read_unread, h2.read_unread, View.ld_unit_zero (S := S10000x128) hz, View.ld_unit_zero (S := S1x128) hz]

/-- Later blocks: the block's total is added to what the accumulator held. -/
theorem later_total (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x1 .f32) (h4 : a4.IsWhole) (hc : ¬cond1_0 i)
    (x0 : Vec F S10000x128 .f32) (x1 : Vec F S1x128 .f32) (xo : Vec F S1x1 .f32) :
    out1_B_3 c i a1 h1 a2 h2 a3 h3 a4 h4 hc x0 x1 xo = k1_pay3 x0 x1 xo := by
  unfold out1_B_3
  rw [View.read_writes_eq_canon _ _ _ (cover1_B_3 c i a1 h1 a2 h2 a3 h3 a4 h4 hc x0 x1 xo)]
  unfold kernelRun1_B
  dsimp only
  rw [View.canon_unit_zero hz]
  simp only [View.readAt_eq_ld, h1.read_unread, h2.read_unread, h4.read_unread, View.ld_unit_zero (S := S10000x128) hz, View.ld_unit_zero (S := S1x128) hz, View.ld_unit_zero (S := S1x1) hz]

variable (V : (c : Dev nD) → (b : Ref sig .tc) → Buf (Elt F) ((c : Thread nD τ).loc b))

/-- The accumulator after block `n`: the reset word plus the first block's total, then one more total per block. -/
def running (c : Dev nD) : (n : ℕ) → n < cfg1.N → Vec F S1x1 .f32
  | 0, h => k1_pay3 (iblk1 V c 0 ⟨0, h⟩) (iblk1 V c 1 ⟨0, h⟩) (k1_pay1 (F := F))
  | n + 1, h => k1_pay3 (iblk1 V c 0 ⟨n + 1, h⟩) (iblk1 V c 1 ⟨n + 1, h⟩) (running c n (Nat.lt_of_succ_lt h))

/-- What the two output buffers hold after block `n`: the biased block, and the running total. -/
theorem outs_eq (c : Dev nD) : ∀ (n : ℕ) (h : n < cfg1.N),
    outsAt1 V c n h = (k1_pay2 (iblk1 V c 0 ⟨n, h⟩) (iblk1 V c 1 ⟨n, h⟩), running V c n h)
  | 0, h => by
    rw [outsAt1_A V c ⟨0, h⟩ rfl, first_biased, first_total]
    rfl
  | n + 1, h => by
    have hN : cfg1.N = 5 := N_1
    have hB : ¬(⟨n + 1, h⟩ : Fin cfg1.N).val % 5 = 0 := by dsimp only; omega
    rw [outsAt1_B V c ⟨n + 1, h⟩ hB, later_biased, later_total]
    show (_, k1_pay3 _ _ (outsAt1 V c n _).2) = _
    rw [outs_eq c n]
    rfl

end Pieces

/-! ## The same at the exact reals, read at an entry -/

section Values

/-- block + bias row, at an entry. -/
theorem biased_entry (x0 : Vec Ideal S10000x128 .f32) (x1 : Vec Ideal S1x128 .f32) (r : Fin 10000) (q : Fin 128) :
    k1_pay2 x0 x1 (ix2 r q) = x0 (ix2 r q) + x1 (ix2 (0 : Fin 1) q) := by
  unfold k1_pay2
  rw [shapeCast_self, shapeCast_self, addf_apply, broadcastTo_1b_ab_apply]

/-- The accumulator's step at its one entry: what it held plus the total of the biased block. -/
theorem total_entry (x0 : Vec Ideal S10000x128 .f32) (x1 : Vec Ideal S1x128 .f32) (acc : Vec Ideal S1x1 .f32) (y : S1x1.Idx) :
    k1_pay3 x0 x1 acc y = acc y + ∑ j : S10000x128.Idx, k1_pay2 x0 x1 j := by
  have red : ∀ j : S1.Idx, multiReduction (F := Ideal) .add [1, 2] S1
        (shapeCast S1x10000x128 (k1_pay2 x0 x1) shapeCasts_S10000x128_S1x10000x128) 0x00000000#32 reduces_S1x10000x128_S1 (.inl rfl) rfl j
      = ∑ j : S10000x128.Idx, k1_pay2 x0 x1 j := fun j =>
    (Ideal.multiReduction_add_total _ _ _ (by decide) _ _ j).trans (Equiv.sum_comp (Shape.reshapeEquiv _) (k1_pay2 x0 x1))
  unfold k1_pay3
  dsimp only
  rw [shapeCast_self, addf_apply, broadcast_apply]
  exact congrArg (acc y + ·) (red _)

variable (V : (c : Dev nD) → (b : Ref sig .tc) → Buf (Elt Ideal) ((c : Thread nD τ).loc b))

/-- The block index of every window at every point: the row block moves with the point, everything else stays. -/
theorem idx_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

theorem lt5 (t : Fin cfg1.N) : t.val < 5 := lt_of_lt_of_eq t.isLt (show cfg1.N = 5 from N_1)

/-- Row `r` of block `t` is row `t · 10000 + r` of the array. -/
def rowOf (t : Fin cfg1.N) (r : Fin 10000) : Fin 50000 := ⟨t.val * 10000 + r.val, by have := lt5 t; omega⟩

/-- Block `t` of the aggregated array, read at an entry. -/
theorem agg_block (c : Dev nD) (t : Fin cfg1.N) (r : Fin 10000) (q : Fin 128) :
    (iblk1 V c 0 t : Vec Ideal S10000x128 .f32) (ix2 r q) = V c main_v47 (ix2 (rowOf t r) q) := by
  obtain ⟨e0, e1, -⟩ := idx_at t
  unfold iblk1
  rw [View.read_apply]
  show V c main_v47 _ = V c main_v47 _
  refine congrArg (V c main_v47) (funext fun a => Fin.ext ?_)
  match a with
  | ⟨0, _⟩ => show win1_0.index t (0 : Fin 2) * 10000 + 1 * r.val = t.val * 10000 + r.val; rw [e0]; omega
  | ⟨1, _⟩ => show win1_0.index t (1 : Fin 2) * 128 + 1 * q.val = q.val; rw [e1]; omega

/-- The bias row's one block is the row itself. -/
theorem bias_block (c : Dev nD) (t : Fin cfg1.N) (q : Fin 128) :
    (iblk1 V c 1 t : Vec Ideal S1x128 .f32) (ix2 (0 : Fin 1) q) = V c main_v49 (ix2 (0 : Fin 1) q) := by
  obtain ⟨-, -, e0, e1, -⟩ := idx_at t
  unfold iblk1
  rw [View.read_apply]
  show V c main_v49 _ = V c main_v49 _
  refine congrArg (V c main_v49) (funext fun a => Fin.ext ?_)
  match a with
  | ⟨0, _⟩ => show win1_1.index t (0 : Fin 2) * 1 + 1 * 0 = 0; rw [e0]
  | ⟨1, _⟩ => show win1_1.index t (1 : Fin 2) * 128 + 1 * q.val = q.val; rw [e1]; omega

/-- A row added to every row of an array. -/
def addRow (a : S50000x128.Idx → EReal) (b : S1x128.Idx → EReal) : S50000x128.Idx → EReal :=
  fun i => a i + b (ix2 (0 : Fin 1) (i 1))

/-- The biased array, entry by entry: the aggregated array with the bias row added to every row. -/
def biased (c : Dev nD) : S50000x128.Idx → EReal := addRow (V c main_v47) (V c main_v49)

/-- The total of block `t` of the biased array. -/
theorem block_total (c : Dev nD) (t : Fin cfg1.N) :
    ∑ j : S10000x128.Idx, k1_pay2 (iblk1 V c 0 t) (iblk1 V c 1 t) j
      = ∑ r : Fin 10000, ∑ q : Fin 128, biased V c (ix2 (rowOf t r) q) := by
  rw [sum_idx2]
  refine Finset.sum_congr rfl fun r _ => Finset.sum_congr rfl fun q _ => ?_
  exact (biased_entry (iblk1 V c 0 t) (iblk1 V c 1 t) r q).trans (congrArg₂ (fun a b : EReal => a + b) (agg_block V c t r q) (bias_block V c t q))

/-! ## The biased array after the region -/

/-- What block `t` writes back to the biased array is block `t` of `biased`. -/
theorem flushed_biased (c : Dev nD) (t : Fin cfg1.N) :
    (dat1 V c).flushed 2 t = ((cfg1.win 2).blk t).view.read (Elt Ideal) (biased V c) := by
  show (cfg1.win 2).cut (grid1.coords t) ((dat1 V c).after 2 t) = _
  rw [after1_2, outs_eq]
  obtain ⟨-, -, -, -, e0, e1, -⟩ := idx_at t
  funext j
  show k1_pay2 (iblk1 V c 0 t) (iblk1 V c 1 t) j = biased V c (((cfg1.win 2).blk t).view.emb j)
  have hj : (j : S10000x128.Idx) = ix2 (j 0) (j 1) := eq_ix2 j
  have he : ((cfg1.win 2).blk t).view.emb j = ix2 (rowOf t (j 0)) (j 1) := by
    funext a; apply Fin.ext
    match a with
    | ⟨0, _⟩ => show win1_2.index t (0 : Fin 2) * 10000 + 1 * (j 0).val = t.val * 10000 + (j 0).val; rw [e0]; omega
    | ⟨1, _⟩ => show win1_2.index t (1 : Fin 2) * 128 + 1 * (j 1).val = (j 1).val; rw [e1]; omega
  rw [he]
  refine (congrArg (k1_pay2 (iblk1 V c 0 t) (iblk1 V c 1 t)) hj).trans ?_
  exact (biased_entry _ _ (j 0) (j 1)).trans
    (congrArg₂ (fun a b : EReal => a + b) (agg_block V c t (j 0) (j 1)) (bias_block V c t (j 1)))

/-- An index of the biased array lies in block `t` iff each coordinate lies in the block's range. -/
theorem mem_biased_blk (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v54_0).slice (win1_2.rect t)).set ↔ _
  rw [View.set_slice_whole, Rect.mem_set_unit]
  exact Iff.rfl

/-- The biased array after the region: row `p` is written by block `p / 10000`. -/
theorem final_biased (c : Dev nD) : (dat1 V c).arrAt 2 cfg1.N = biased V c :=
  (dat1 V c).arrAt_eq_of_cover 2 (biased V c) (fun t _ => flushed_biased V c t) fun i => by
    have hi0 : (i 0).val < 50000 := (i 0).isLt
    have hi1 : (i 1).val < 128 := (i 1).isLt
    have hN : cfg1.N = 5 := N_1
    obtain ⟨t, ht⟩ : ∃ t : Fin cfg1.N, t.val = (i 0).val / 10000 := ⟨⟨(i 0).val / 10000, by rw [hN]; omega⟩, rfl⟩
    obtain ⟨-, -, -, -, e0, e1, -⟩ := idx_at t
    refine ⟨t, flush1_2 t, ?_⟩
    rw [mem_biased_blk]
    intro a
    match a with
    | ⟨0, _⟩ =>
      show win1_2.index t (0 : Fin 2) * 10000 ≤ (i 0).val ∧ (i 0).val < win1_2.index t (0 : Fin 2) * 10000 + 10000
      rw [e0, ht]; omega
    | ⟨1, _⟩ =>
      show win1_2.index t (1 : Fin 2) * 128 ≤ (i 1).val ∧ (i 1).val < win1_2.index t (1 : Fin 2) * 128 + 128
      rw [e1]; omega

/-! ## The total after the region -/

theorem four_lt : 4 < cfg1.N := by rw [show cfg1.N = 5 from N_1]; decide

/-- The one write-back of the accumulator, after the last block, writes the running total. -/
theorem flushed_total (c : Dev nD) (t : Fin cfg1.N) (hf : (cfg1.win 3).flush t = true) :
    (dat1 V c).flushed 3 t = ((cfg1.win 3).blk t).view.read (Elt Ideal) (running V c 4 four_lt) := by
  have hN : cfg1.N = 5 := N_1
  have h4 : t.val = 4 := by have := (flush1_3 t).mp hf; have := t.isLt; omega
  obtain rfl : t = t1_4 := Fin.ext h4
  show (cfg1.win 3).cut (grid1.coords t1_4) ((dat1 V c).after 3 t1_4) = _
  rw [after1_3, outs_eq]
  have hz' : (fun a => win1_3.index t1_4 a * main_v54_1.ty.shape.size a) = fun _ => 0 :=
    funext fun a => by fin_cases a <;> decide +kernel
  exact (Memref.read_access_unit_zero (Elt Ideal) main_v54_1 hz' (fun a => by rw [congrFun hz' a]; simp) (running V c 4 four_lt)).symm

/-- So the 1×1 array ends holding the running total after the last block. -/
theorem final_running (c : Dev nD) : (dat1 V c).arrAt 3 cfg1.N = running V c 4 four_lt :=
  (dat1 V c).arrAt_eq_of_cover 3 (running V c 4 four_lt) (flushed_total V c) fun i =>
    ⟨t1_4, (flush1_3 t1_4).mpr rfl, by
      show i ∈ ((View.whole main_v54_1).slice (win1_3.rect t1_4)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index t1_4 0 * win1_3.size 0 ≤ (i 0 : Nat) ∧ (i 0 : Nat) < win1_3.index t1_4 0 * win1_3.size 0 + win1_3.xsize (grid1.coords t1_4) 0
        rw [show win1_3.index t1_4 0 * win1_3.size 0 = 0 from by decide +kernel, show win1_3.xsize (grid1.coords t1_4) 0 = 1 from by decide +kernel]; omega
      | ⟨1, _⟩ =>
        show win1_3.index t1_4 1 * win1_3.size 1 ≤ (i 1 : Nat) ∧ (i 1 : Nat) < win1_3.index t1_4 1 * win1_3.size 1 + win1_3.xsize (grid1.coords t1_4) 1
        rw [show win1_3.index t1_4 1 * win1_3.size 1 = 0 from by decide +kernel, show win1_3.xsize (grid1.coords t1_4) 1 = 1 from by decide +kernel]; omega⟩

/-- The total of block `t`, for `t` counted as one of five. -/
def blockSum (c : Dev nD) (t : Fin 5) : EReal :=
  ∑ r : Fin 10000, ∑ q : Fin 128,
    biased V c (ix2 (⟨t.val * 10000 + r.val, by have := t.isLt; have := r.isLt; omega⟩ : Fin 50000) q)

theorem running_zero (c : Dev nD) (h : 0 < cfg1.N) (y : S1x1.Idx) :
    running V c 0 h y = Ideal.ofBits .f32 0x00000000#32 + blockSum V c 0 :=
  (total_entry _ _ _ y).trans (congrArg (fun s : EReal => Ideal.ofBits .f32 0x00000000#32 + s) (block_total V c ⟨0, h⟩))

theorem running_succ (c : Dev nD) (n : ℕ) (h : n + 1 < cfg1.N) (y : S1x1.Idx) :
    running V c (n + 1) h y = running V c n (Nat.lt_of_succ_lt h) y
      + blockSum V c ⟨n + 1, lt_of_lt_of_eq h (show cfg1.N = 5 from N_1)⟩ :=
  (total_entry _ _ _ y).trans (congrArg (fun s : EReal => running V c n (Nat.lt_of_succ_lt h) y + s) (block_total V c ⟨n + 1, h⟩))

/-- The running total after the last block is the zero word plus the sum of EVERY entry of the biased array. -/
theorem total_closed (c : Dev nD) (y : S1x1.Idx) :
    running V c 4 four_lt y = Ideal.ofBits .f32 0x00000000#32 + ∑ i : S50000x128.Idx, biased V c i := by
  rw [running_succ V c 3, running_succ V c 2, running_succ V c 1, running_succ V c 0, running_zero V c]
  exact (Cert.LaneSums.chain5 _ (blockSum V c)).trans
    (congrArg (fun s : EReal => Ideal.ofBits .f32 0x00000000#32 + s) (Cert.LaneSums.sum_row_blocks (biased V c)))

/-- The 1×1 array of the total after the region, at its one entry. -/
theorem final_total (c : Dev nD) (y : S1x1.Idx) :
    (dat1 V c).arrAt 3 cfg1.N y = Ideal.ofBits .f32 0x00000000#32 + ∑ i : S50000x128.Idx, biased V c i :=
  (congrFun (final_running V c) y).trans (total_closed V c y)

end Values

end Cert.KernelIdeal.BiasSum

end
-- ==== Proof.SumSq.lean ====
/-
  The third region: the centred sum of squares.

  The biased array (50000 rows of 128 lanes) is visited in the same five blocks of 10000 rows; the mean is a 1×1
  array the body reads whole.  At each block the body subtracts the mean from every entry, squares, and adds the
  block's total to a 1×1 accumulator that is reset to the zero word at the first block and written back after the
  last.  So the 1×1 array ends at  z + Σ (b[p, q] − μ)²  over every entry of the biased array: the five block totals
  added in block order are their sum, addition of extended reals being associative and commutative.
-/
import proofs.«170983_j88304527606467_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«170983_j88304527606467_2_alg».proof.Proof.LaneSums

noncomputable section

open Idealize.ShloMosaic Idealize.ShloMosaic.TcCoe Idealize.SL.Sem
open Idealize.ShloMosaic.Pipeline (Dat)

namespace Cert.KernelIdeal.SumSq

open Cert.KernelIdeal Cert.KernelIdeal.Gen ValueIdx

theorem hz : (![0, 0] : Fin 2 → Nat) = fun _ => 0 := funext fun a => by fin_cases a <;> rfl

/-! ## What each control case leaves in the accumulator, for any floats -/

section Pieces

variable {F : FTy → Type} [FloatOps F]

/-- First block: the accumulator is reset to the zero word and the block's total of squares added to it. -/
theorem first_total (c : Dev nD) (i : grid2.Coords) (a1 : Memref sig .tc .vmem S10000x128 .f32) (h1 : a1.IsWhole)
    (a2 : Memref sig .tc .vmem S1x1 .f32) (h2 : a2.IsWhole) (a3 : Memref sig .tc .vmem S1x1 .f32) (h3 : a3.IsWhole)
    (hc : cond2_0 i) (x0 : Vec F S10000x128 .f32) (x1 : Vec F S1x1 .f32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S1x1) hz, View.readCov_unit_zero (S := S1x1) _ hz]
  simp only [View.readAt_eq_ld, h1.read_unread, h2.read_unread, View.ld_unit_zero (S := S10000x128) hz, View.ld_unit_zero (S := S1x1) hz]

/-- Later blocks: the block's total of squares is added to what the accumulator held. -/
theorem later_total (c : Dev nD) (i : grid2.Coords) (a1 : Memref sig .tc .vmem S10000x128 .f32) (h1 : a1.IsWhole)
    (a2 : Memref sig .tc .vmem S1x1 .f32) (h2 : a2.IsWhole) (a3 : Memref sig .tc .vmem S1x1 .f32) (h3 : a3.IsWhole)
    (hc : ¬cond2_0 i) (x0 : Vec F S10000x128 .f32) (x1 : Vec F S1x1 .f32) (xo : Vec F S1x1 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  rw [View.canon_unit_zero hz]
  simp only [View.readAt_eq_ld, h1.read_unread, h2.read_unread, h3.read_unread, View.ld_unit_zero (S := S10000x128) hz, View.ld_unit_zero (S := S1x1) hz]

variable (V : (c : Dev nD) → (b : Ref sig .tc) → Buf (Elt F) ((c : Thread nD τ).loc b))

/-- The accumulator after block `n`. -/
def running (c : Dev nD) : (n : ℕ) → n < cfg2.N → Vec F S1x1 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (running c n (Nat.lt_of_succ_lt h))

theorem outs_eq (c : Dev nD) : ∀ (n : ℕ) (h : n < cfg2.N), outsAt2 V c n h = running V c n h
  | 0, h => by
    rw [outsAt2_A V c ⟨0, h⟩ rfl, first_total]
    rfl
  | n + 1, h => by
    have hN : cfg2.N = 5 := N_2
    have hB : ¬(⟨n + 1, h⟩ : Fin cfg2.N).val % 5 = 0 := by dsimp only; omega
    rw [outsAt2_B V c ⟨n + 1, h⟩ hB, later_total]
    show k2_pay2 _ _ (outsAt2 V c n _) = _
    rw [outs_eq c n]
    rfl

end Pieces

/-! ## The same at the exact reals -/

section Values

/-- The entry (0, 0) of a 1×1 array, however the position is spelt. -/
theorem extract00 (x1 : Vec Ideal S1x1 .f32) (h : ∀ a, (![0, 0] : Fin 2 → Nat) a < S1x1.size a) :
    extractAt ![0, 0] x1 h = x1 (ix2 (0 : Fin 1) (0 : Fin 1)) :=
  congrArg x1 (funext fun a => match a with | ⟨0, _⟩ => rfl | ⟨1, _⟩ => rfl)

/-- The squared distance of every entry from a centre. -/
def centredSq {S : Shape} (b : S.Idx → EReal) (mu : EReal) : S.Idx → EReal := fun i => (b i - mu) * (b i - mu)

/-- The accumulator's step at its one entry: what it held plus the block's total of squared distances from the mean. -/
theorem total_entry (x0 : Vec Ideal S10000x128 .f32) (x1 : Vec Ideal S1x1 .f32) (acc : Vec Ideal S1x1 .f32) (y : S1x1.Idx) :
    k2_pay2 x0 x1 acc y = acc y + ∑ j : S10000x128.Idx, centredSq x0 (x1 (ix2 (0 : Fin 1) (0 : Fin 1))) j := by
  have red : ∀ (src : FVec Ideal S10000x128 .f32) (j : S1.Idx), multiReduction (F := Ideal) .add [1, 2] S1
        (shapeCast S1x10000x128 src shapeCasts_S10000x128_S1x10000x128) 0x00000000#32 reduces_S1x10000x128_S1 (.inl rfl) rfl j
      = ∑ j : S10000x128.Idx, src j := fun src j =>
    (Ideal.multiReduction_add_total _ _ _ (by decide) _ _ j).trans (Equiv.sum_comp (Shape.reshapeEquiv _) src)
  unfold k2_pay2
  rw [shapeCast_self, shapeCast_self, addf_apply, broadcast_apply]
  refine congrArg (acc y + ·) ((red _ _).trans (Finset.sum_congr rfl fun j _ => ?_))
  show (x0 j - extractAt ![0, 0] x1 _) * (x0 j - extractAt ![0, 0] x1 _) = _
  rw [extract00]
  rfl

variable (V : (c : Dev nD) → (b : Ref sig .tc) → Buf (Elt Ideal) ((c : Thread nD τ).loc b))

theorem idx_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem lt5 (t : Fin cfg2.N) : t.val < 5 := lt_of_lt_of_eq t.isLt (show cfg2.N = 5 from N_2)

/-- Row `r` of block `t` is row `t · 10000 + r` of the array. -/
def rowOf (t : Fin cfg2.N) (r : Fin 10000) : Fin 50000 := ⟨t.val * 10000 + r.val, by have := lt5 t; omega⟩

/-- Block `t` of the biased array, read at an entry. -/
theorem biased_block (c : Dev nD) (t : Fin cfg2.N) (r : Fin 10000) (q : Fin 128) :
    (iblk2 V c 0 t : Vec Ideal S10000x128 .f32) (ix2 r q) = V c main_v54_0 (ix2 (rowOf t r) q) := by
  obtain ⟨e0, e1, -⟩ := idx_at t
  unfold iblk2
  rw [View.read_apply]
  show V c main_v54_0 _ = V c main_v54_0 _
  refine congrArg (V c main_v54_0) (funext fun a => Fin.ext ?_)
  match a with
  | ⟨0, _⟩ => show win2_0.index t (0 : Fin 2) * 10000 + 1 * r.val = t.val * 10000 + r.val; rw [e0]; omega
  | ⟨1, _⟩ => show win2_0.index t (1 : Fin 2) * 128 + 1 * q.val = q.val; rw [e1]; omega

/-- The mean's one block is the 1×1 array itself. -/
theorem mean_block (c : Dev nD) (t : Fin cfg2.N) :
    (iblk2 V c 1 t : Vec Ideal S1x1 .f32) (ix2 (0 : Fin 1) (0 : Fin 1)) = V c main_v57 (ix2 (0 : Fin 1) (0 : Fin 1)) := by
  obtain ⟨-, -, e0, e1, -⟩ := idx_at t
  unfold iblk2
  rw [View.read_apply]
  show V c main_v57 _ = V c main_v57 _
  refine congrArg (V c main_v57) (funext fun a => Fin.ext ?_)
  match a with
  | ⟨0, _⟩ => show win2_1.index t (0 : Fin 2) * 1 + 1 * 0 = 0; rw [e0]
  | ⟨1, _⟩ => show win2_1.index t (1 : Fin 2) * 1 + 1 * 0 = 0; rw [e1]

/-- The squared distances of the biased array's entries from the mean the region found. -/
def squares (c : Dev nD) : S50000x128.Idx → EReal :=
  centredSq (S := S50000x128) (V c main_v54_0) (V c main_v57 (ix2 (0 : Fin 1) (0 : Fin 1)))

/-- The total of block `t`. -/
theorem block_total (c : Dev nD) (t : Fin cfg2.N) :
    ∑ j : S10000x128.Idx, centredSq (S := S10000x128) (iblk2 V c 0 t) ((iblk2 V c 1 t : Vec Ideal S1x1 .f32) (ix2 (0 : Fin 1) (0 : Fin 1))) j
      = ∑ r : Fin 10000, ∑ q : Fin 128, squares V c (ix2 (rowOf t r) q) := by
  rw [sum_idx2]
  refine Finset.sum_congr rfl fun r _ => Finset.sum_congr rfl fun q _ => ?_
  exact congrArg₂ (fun a mu : EReal => (a - mu) * (a - mu)) (biased_block V c t r q) (mean_block V c t)

/-! ## The total after the region -/

theorem four_lt : 4 < cfg2.N := by rw [show cfg2.N = 5 from N_2]; decide

/-- The one write-back of the accumulator, after the last block, writes the running total. -/
theorem flushed_total (c : Dev nD) (t : Fin cfg2.N) (hf : (cfg2.win 2).flush t = true) :
    (dat2 V c).flushed 2 t = ((cfg2.win 2).blk t).view.read (Elt Ideal) (running V c 4 four_lt) := by
  have hN : cfg2.N = 5 := N_2
  have h4 : t.val = 4 := by have := (flush2_2 t).mp hf; have := t.isLt; omega
  obtain rfl : t = t2_4 := Fin.ext h4
  show (cfg2.win 2).cut (grid2.coords t2_4) ((dat2 V c).after 2 t2_4) = _
  rw [after2_2, outs_eq]
  have hz' : (fun a => win2_2.index t2_4 a * main_v58.ty.shape.size a) = fun _ => 0 :=
    funext fun a => by fin_cases a <;> decide +kernel
  exact (Memref.read_access_unit_zero (Elt Ideal) main_v58 hz' (fun a => by rw [congrFun hz' a]; simp) (running V c 4 four_lt)).symm

/-- So the 1×1 array ends holding the running total after the last block. -/
theorem final_running (c : Dev nD) : (dat2 V c).arrAt 2 cfg2.N = running V c 4 four_lt :=
  (dat2 V c).arrAt_eq_of_cover 2 (running V c 4 four_lt) (flushed_total V c) fun i =>
    ⟨t2_4, (flush2_2 t2_4).mpr rfl, by
      show i ∈ ((View.whole main_v58).slice (win2_2.rect t2_4)).set
      rw [View.set_slice_whole, Rect.mem_set_unit]
      intro a
      have h0 : (i 0 : Nat) < 1 := (i 0).isLt
      have h1 : (i 1 : Nat) < 1 := (i 1).isLt
      match a with
      | ⟨0, _⟩ =>
        show win2_2.index t2_4 0 * win2_2.size 0 ≤ (i 0 : Nat) ∧ (i 0 : Nat) < win2_2.index t2_4 0 * win2_2.size 0 + win2_2.xsize (grid2.coords t2_4) 0
        rw [show win2_2.index t2_4 0 * win2_2.size 0 = 0 from by decide +kernel, show win2_2.xsize (grid2.coords t2_4) 0 = 1 from by decide +kernel]; omega
      | ⟨1, _⟩ =>
        show win2_2.index t2_4 1 * win2_2.size 1 ≤ (i 1 : Nat) ∧ (i 1 : Nat) < win2_2.index t2_4 1 * win2_2.size 1 + win2_2.xsize (grid2.coords t2_4) 1
        rw [show win2_2.index t2_4 1 * win2_2.size 1 = 0 from by decide +kernel, show win2_2.xsize (grid2.coords t2_4) 1 = 1 from by decide +kernel]; omega⟩

/-- The total of block `t`, for `t` counted as one of five. -/
def blockSum (c : Dev nD) (t : Fin 5) : EReal :=
  ∑ r : Fin 10000, ∑ q : Fin 128,
    squares V c (ix2 (⟨t.val * 10000 + r.val, by have := t.isLt; have := r.isLt; omega⟩ : Fin 50000) q)

theorem running_zero (c : Dev nD) (h : 0 < cfg2.N) (y : S1x1.Idx) :
    running V c 0 h y = Ideal.ofBits .f32 0x00000000#32 + blockSum V c 0 :=
  (total_entry _ _ _ y).trans (congrArg (fun s : EReal => Ideal.ofBits .f32 0x00000000#32 + s) (block_total V c ⟨0, h⟩))

theorem running_succ (c : Dev nD) (n : ℕ) (h : n + 1 < cfg2.N) (y : S1x1.Idx) :
    running V c (n + 1) h y = running V c n (Nat.lt_of_succ_lt h) y
      + blockSum V c ⟨n + 1, lt_of_lt_of_eq h (show cfg2.N = 5 from N_2)⟩ :=
  (total_entry _ _ _ y).trans (congrArg (fun s : EReal => running V c n (Nat.lt_of_succ_lt h) y + s) (block_total V c ⟨n + 1, h⟩))

/-- The running total after the last block is the zero word plus the sum of EVERY squared distance. -/
theorem total_closed (c : Dev nD) (y : S1x1.Idx) :
    running V c 4 four_lt y = Ideal.ofBits .f32 0x00000000#32 + ∑ i : S50000x128.Idx, squares V c i := by
  rw [running_succ V c 3, running_succ V c 2, running_succ V c 1, running_succ V c 0, running_zero V c]
  exact (Cert.LaneSums.chain5 _ (blockSum V c)).trans
    (congrArg (fun s : EReal => Ideal.ofBits .f32 0x00000000#32 + s) (Cert.LaneSums.sum_row_blocks (squares V c)))

/-- The 1×1 array of the centred sum of squares after the region, at its one entry. -/
theorem final_total (c : Dev nD) (y : S1x1.Idx) :
    (dat2 V c).arrAt 2 cfg2.N y = Ideal.ofBits .f32 0x00000000#32 + ∑ i : S50000x128.Idx, squares V c i :=
  (congrFun (final_running V c) y).trans (total_closed V c y)

end Values

end Cert.KernelIdeal.SumSq

end
-- ==== Proof.NormAct.lean ====
/-
  Region 3 of the kernel, read as one function of the arrays it finds.

  The region normalises and activates: for a row p and a lane q it takes the entry x[p, q] of a
  50000 x 128 array, subtracts a scalar mean, multiplies by a scalar inverse deviation, scales by a
  per-lane weight g[q], shifts by a per-lane offset b[q], and clips below at zero:

      y[p, q] = max (((x[p, q] - mean) * inv) * g[q] + b[q]) 0.

  The rows are handled in five blocks of 10000 rows; the scalars and the two lane vectors are read
  whole at every block. Below: the block computation read at one entry, the whole-array function,
  each block written back being that function restricted to the block's rows, the blocks covering
  every row, and so the array after the region.
-/
import proofs.«170983_j88304527606467_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NormAct

open Cert.KernelIdeal Cert.KernelIdeal.Gen Idealize.ShloMosaic Idealize.ShloMosaic.TcCoe Idealize.SL.Sem
open Idealize.ShloMosaic.ValueIdx
open Idealize.ShloMosaic.Pipeline (Dat)

/-! ## The block computation at one entry -/

/-- The scalar read out of a one-entry vector is that vector's only entry. -/
theorem extract_one (x : Vec Ideal S1x1 .f32) (h : ∀ a, (![0, 0] : Fin 2 → Nat) a < S1x1.size a) :
    extractAt ![0, 0] x h = x (ix2 (0 : Fin 1) (0 : Fin 1)) := by
  unfold extractAt
  refine congrArg x (funext fun a => Fin.ext ?_)
  match a with
  | ⟨0, _⟩ => rfl
  | ⟨1, _⟩ => rfl

/-- The block computation at the entry in row r and lane q of a block of 10000 rows: centre by the scalar mean, scale
    by the scalar inverse deviation, weight by the lane's weight, shift by the lane's offset, clip below at zero. -/
theorem block_apply (x0 : Vec Ideal S10000x128 .f32) (x3 x4 : Vec Ideal S1x1 .f32) (x1 x2 : Vec Ideal S1x128 .f32)
    (r : Fin 10000) (q : Fin 128) :
    k3_pay1 x0 x3 x4 x1 x2 (ix2 r q)
      = max (((x0 (ix2 r q) - x3 (ix2 (0 : Fin 1) (0 : Fin 1))) * x4 (ix2 (0 : Fin 1) (0 : Fin 1))) * x1 (ix2 (0 : Fin 1) q)
          + x2 (ix2 (0 : Fin 1) q)) (Ideal.ofBits .f32 0x00000000#32) := by
  unfold k3_pay1
  rw [maximumf_apply, addf_apply, mulf_apply, mulf_apply, subf_apply, broadcast_apply, broadcast_apply, broadcast_apply,
    shapeCast_self, shapeCast_self, shapeCast_self, broadcastTo_1b_ab_apply, broadcastTo_1b_ab_apply,
    extract_one, extract_one]
  rfl

/-! ## The whole-array function -/

/-- The region's result as one function of the five arrays it reads: entry (p, q) of the output is entry (p, q) of the
    row array, centred by the scalar mean, scaled by the scalar inverse deviation, weighted and shifted by lane q's
    weight and offset, clipped below at zero. -/
def normAct (x : S50000x128.Idx → EReal) (mean inv : S1x1.Idx → EReal) (g b : S1x128.Idx → EReal) :
    S50000x128.Idx → EReal := fun i =>
  max (((x i - mean (ix2 (0 : Fin 1) (0 : Fin 1))) * inv (ix2 (0 : Fin 1) (0 : Fin 1)))
        * g (ix2 (0 : Fin 1) (⟨(i 1).val, idx2_lt1 i⟩ : Fin 128))
      + b (ix2 (0 : Fin 1) (⟨(i 1).val, idx2_lt1 i⟩ : Fin 128)))
    (Ideal.ofBits .f32 0x00000000#32)

/-- That function at the entry in row p and lane q. -/
theorem normAct_apply (x : S50000x128.Idx → EReal) (mean inv : S1x1.Idx → EReal) (g b : S1x128.Idx → EReal)
    (p : Fin 50000) (q : Fin 128) :
    normAct x mean inv g b (ix2 p q)
      = max (((x (ix2 p q) - mean (ix2 (0 : Fin 1) (0 : Fin 1))) * inv (ix2 (0 : Fin 1) (0 : Fin 1))) * g (ix2 (0 : Fin 1) q)
          + b (ix2 (0 : Fin 1) q)) (Ideal.ofBits .f32 0x00000000#32) := rfl

/-- That function at any entry whose lane is q, whatever its row. -/
theorem normAct_lane (x : S50000x128.Idx → EReal) (mean inv : S1x1.Idx → EReal) (g b : S1x128.Idx → EReal)
    (i : S50000x128.Idx) (q : Fin 128) (h : (i 1).val = q.val) :
    normAct x mean inv g b i
      = max (((x i - mean (ix2 (0 : Fin 1) (0 : Fin 1))) * inv (ix2 (0 : Fin 1) (0 : Fin 1))) * g (ix2 (0 : Fin 1) q)
          + b (ix2 (0 : Fin 1) q)) (Ideal.ofBits .f32 0x00000000#32) := by
  have e : (⟨(i 1).val, idx2_lt1 i⟩ : Fin 128) = q := Fin.ext h
  unfold normAct
  rw [e]

variable (V : (c : Dev nD) → (b : Ref sig .tc) → Buf (Elt Ideal) ((c : Thread nD τ).loc b))

/-- The function at the five arrays as they are when the region is entered. -/
abbrev normActAt (c : Dev nD) : S50000x128.Idx → EReal :=
  normAct (V c main_v54_0) (V c main_v57) (V c main_v63) (V c main_v51) (V c main_v53)

/-! ## Each block written back is the function on that block's rows -/

theorem zero_offsets : (![0, 0] : Fin 2 → Nat) = fun _ => 0 := funext fun a => by fin_cases a <;> rfl

/-- The block positions at each of the five points: the row array and the output move together, block t of 10000 rows
    at point t, all 128 lanes; the scalars and the lane vectors are read whole at every point. -/
theorem index_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

set_option maxHeartbeats 400000 in
/-- What point t writes back is the function restricted to block t: the row block is read at the rows where the output
    block sits (row t * 10000 + r, lane q), the scalars at their one entry, the lane vectors at lane q. -/
theorem flushed_eq (c : Dev nD) (t : Fin cfg3.N) :
    (dat3 (F := Ideal) V c).flushed 5 t = ((cfg3.win 5).blk t).view.read (Elt Ideal) (normActAt V c) := by
  show (cfg3.win 5).cut (grid3.coords t) ((dat3 V c).after 5 t) = _
  rw [after3_5]
  unfold out3_5
  rw [View.canon_unit_zero zero_offsets]
  simp only [View.ld_unit_zero (S := S10000x128) zero_offsets, View.ld_unit_zero (S := S1x1) zero_offsets,
    View.ld_unit_zero (S := S1x128) zero_offsets]
  funext j
  obtain ⟨r, q, rfl⟩ : ∃ (r : Fin 10000) (q : Fin 128), j = ix2 r q := ⟨j 0, j 1, eq_ix2 j⟩
  show k3_pay1 (iblk3 V c 0 t) (iblk3 V c 3 t) (iblk3 V c 4 t) (iblk3 V c 1 t) (iblk3 V c 2 t) (ix2 r q)
    = normActAt V c (((cfg3.win 5).blk t).view.emb (ix2 r q))
  refine (block_apply _ _ _ _ _ r q).trans ?_
  obtain ⟨a0, a1, o0, o1, g0, g1, b0, b1, m0, m1, s0, s1⟩ := index_facts t
  have hx : iblk3 V c 0 t (ix2 r q) = V c main_v54_0 (((cfg3.win 5).blk t).view.emb (ix2 r q)) := by
    show V c main_v54_0 (((cfg3.win 0).blk t).view.emb (ix2 r q)) = _
    refine congrArg (V c main_v54_0) (funext fun a => Fin.ext ?_)
    match a with
    | ⟨0, _⟩ => show win3_0.index t (0 : Fin 2) * 10000 + 1 * r.val = win3_5.index t (0 : Fin 2) * 10000 + 1 * r.val; omega
    | ⟨1, _⟩ => show win3_0.index t (1 : Fin 2) * 128 + 1 * q.val = win3_5.index t (1 : Fin 2) * 128 + 1 * q.val; omega
  have hmean : iblk3 V c 3 t (ix2 (0 : Fin 1) (0 : Fin 1)) = V c main_v57 (ix2 (0 : Fin 1) (0 : Fin 1)) := by
    show V c main_v57 (((cfg3.win 3).blk t).view.emb (ix2 (0 : Fin 1) (0 : Fin 1))) = _
    refine congrArg (V c main_v57) (funext fun a => Fin.ext ?_)
    match a with
    | ⟨0, _⟩ => show win3_3.index t (0 : Fin 2) * 1 + 1 * 0 = 0; omega
    | ⟨1, _⟩ => show win3_3.index t (1 : Fin 2) * 1 + 1 * 0 = 0; omega
  have hinv : iblk3 V c 4 t (ix2 (0 : Fin 1) (0 : Fin 1)) = V c main_v63 (ix2 (0 : Fin 1) (0 : Fin 1)) := by
    show V c main_v63 (((cfg3.win 4).blk t).view.emb (ix2 (0 : Fin 1) (0 : Fin 1))) = _
    refine congrArg (V c main_v63) (funext fun a => Fin.ext ?_)
    match a with
    | ⟨0, _⟩ => show win3_4.index t (0 : Fin 2) * 1 + 1 * 0 = 0; omega
    | ⟨1, _⟩ => show win3_4.index t (1 : Fin 2) * 1 + 1 * 0 = 0; omega
  have hg : iblk3 V c 1 t (ix2 (0 : Fin 1) q) = V c main_v51 (ix2 (0 : Fin 1) q) := by
    show V c main_v51 (((cfg3.win 1).blk t).view.emb (ix2 (0 : Fin 1) q)) = _
    refine congrArg (V c main_v51) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  have hb : iblk3 V c 2 t (ix2 (0 : Fin 1) q) = V c main_v53 (ix2 (0 : Fin 1) q) := by
    show V c main_v53 (((cfg3.win 2).blk t).view.emb (ix2 (0 : Fin 1) q)) = _
    refine congrArg (V c main_v53) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  have hlane : ((((cfg3.win 5).blk t).view.emb (ix2 r q)) 1).val = q.val := by
    show win3_5.index t (1 : Fin 2) * 128 + 1 * q.val = q.val; omega
  rw [hx, hmean, hinv, hg, hb]
  exact (normAct_lane _ _ _ _ _ _ q hlane).symm

/-! ## The blocks cover the array -/

/-- An entry of the array is in point t's block iff each coordinate is in the block's range on its axis. -/
theorem mem_blk (t : Fin cfg3.N) (i : S50000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v64).slice (win3_5.rect t)).set ↔ _
  rw [View.set_slice_whole, Rect.mem_set_unit]
  exact Iff.rfl

/-- Every entry is in some point's block: row p is in the block of point p / 10000, and each block holds all 128 lanes. -/
theorem cover (i : S50000x128.Idx) :
    ∃ t : Fin cfg3.N, (cfg3.win 5).flush t = true ∧ i ∈ ((cfg3.win 5).blk t).view.set := by
  have hi0 : (i 0).val < 50000 := idx2_lt0 i
  have hi1 : (i 1).val < 128 := idx2_lt1 i
  have hN : grid3.N = 5 := N_3
  obtain ⟨t, ht⟩ : ∃ t : Fin cfg3.N, t.val = (i 0).val / 10000 :=
    ⟨⟨(i 0).val / 10000, by show (i 0).val / 10000 < grid3.N; omega⟩, rfl⟩
  obtain ⟨a0, a1, o0, o1, -⟩ := index_facts t
  refine ⟨t, flush3_5 t, ?_⟩
  rw [mem_blk]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 128 ≤ (i 1).val ∧ (i 1).val < win3_5.index t (1 : Fin 2) * 128 + 128
    omega

/-! ## The array after the region -/

/-- The output array after the region is the function of the five arrays as the region found them, at every entry. -/
theorem final_fun (c : Dev nD) : (dat3 (F := Ideal) V c).arrAt 5 cfg3.N = normActAt V c :=
  (dat3 V c).arrAt_eq_of_cover 5 (normActAt V c) (fun t _ => flushed_eq V c t) cover

/-- The same at the entry in row p and lane q. -/
theorem final (c : Dev nD) (p : Fin 50000) (q : Fin 128) :
    (dat3 (F := Ideal) V c).arrAt 5 cfg3.N (ix2 p q)
      = normAct (V c main_v54_0) (V c main_v57) (V c main_v63) (V c main_v51) (V c main_v53) (ix2 p q) :=
  congrFun (final_fun V c) (ix2 p q)

/-- The same with the five arrays named: whatever they hold when the region is entered, the output's entry (p, q) is
    their entries centred, scaled, weighted, shifted and clipped. -/
theorem final_of (c : Dev nD) (x : S50000x128.Idx → EReal) (mean inv : S1x1.Idx → EReal) (g b : S1x128.Idx → EReal)
    (hx : V c main_v54_0 = x) (hmean : V c main_v57 = mean) (hinv : V c main_v63 = inv)
    (hg : V c main_v51 = g) (hb : V c main_v53 = b) (p : Fin 50000) (q : Fin 128) :
    (dat3 (F := Ideal) V c).arrAt 5 cfg3.N (ix2 p q)
      = max (((x (ix2 p q) - mean (ix2 (0 : Fin 1) (0 : Fin 1))) * inv (ix2 (0 : Fin 1) (0 : Fin 1))) * g (ix2 (0 : Fin 1) q)
          + b (ix2 (0 : Fin 1) q)) (Ideal.ofBits .f32 0x00000000#32) := by
  subst hx hmean hinv hg hb
  exact (final V c p q).trans (normAct_apply _ _ _ _ _ p q)

end Cert.KernelIdeal.NormAct

end
-- ==== Proof.RefWhole.lean ====
/-
  The reference, read at an entry.

  Write o for the reference's array of aggregated features with the bias added (100000 rows of 64 features), z for
  the zero word, n for the word 6.4·10⁶ and ε for the word the source spells 1e-5.  The reference returns, at (i, f),
      max( ((o[i,f] − μ) · ρ) · γ[f] + β[f] , z ),     μ = (z + Σ o) / n,     ρ = rsqrt( (z + Σ (o − μ)²) / n + ε ),
  every operation the exact one on the extended reals.  This module states that, over any such array o.
-/
import proofs.«170983_j88304527606467_2_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.Whole

open Cert.ReferenceIdeal Cert.ReferenceIdeal.Read Idealize.ShloMosaic Idealize.ShloMosaic.ValueIdx

/-- The zero word, the word 6.4·10⁶ (the number of entries) and the word the source spells 1e-5, as they read at
    the exact reals; none of them is ever evaluated. -/
abbrev zw : EReal := Ideal.ofBits .f32 0x00000000#32
abbrev nw : EReal := Ideal.ofBits .f32 0x4AC35000#32
abbrev ew : EReal := Ideal.ofBits .f32 0x3727C5AC#32

/-- The mean of an array whose entries are summed from the zero word and divided by the entry count. -/
def mean {S : Shape} (o : S.Idx → EReal) : EReal := FloatOps.hostDivf (F := Ideal) (φ := .f32) (zw + ∑ j, o j) nw

/-- The squared distance of every entry from a centre. -/
def centred {S : Shape} (o : S.Idx → EReal) (mu : EReal) : S.Idx → EReal := fun i => (o i - mu) * (o i - mu)

/-- The reciprocal standard deviation: rsqrt of the mean squared distance from the mean, plus ε. -/
def invStd {S : Shape} (o : S.Idx → EReal) : EReal :=
  FloatOps.hostUnary (F := Ideal) (φ := .f32) .rsqrt
    (FloatOps.hostDivf (F := Ideal) (φ := .f32) (zw + ∑ j, centred o (mean o) j) nw + ew)

/-- One normalised, scaled, shifted and clamped entry. -/
def normEntry (x mu rs g b : EReal) : EReal := max (((x - mu) * rs) * g + b) zw

/-- The reference's result over its biased array `o`. -/
def result (o : S100000x64.Idx → EReal) (g b : S64.Idx → EReal) : S100000x64.Idx → EReal :=
  fun i => normEntry (o i) (mean o) (invStd o) (g (ix1 (⟨(i 1).val, (i 1).isLt⟩ : Fin 64))) (b (ix1 (⟨(i 1).val, (i 1).isLt⟩ : Fin 64)))

theorem feature_idx (i : S100000x64.Idx) : idx_main_v63 (idx_main_v64 i) = ix1 (⟨(i 1).val, (i 1).isLt⟩ : Fin 64) :=
  funext fun a => match a with | ⟨0, _⟩ => rfl
theorem feature_idx' (i : S100000x64.Idx) : idx_main_v66 (idx_main_v67 i) = ix1 (⟨(i 1).val, (i 1).isLt⟩ : Fin 64) :=
  funext fun a => match a with | ⟨0, _⟩ => rfl
theorem feature_idx'' (i : S100000x64.Idx) : idx_main_v47 (idx_main_v48 i) = ix1 (⟨(i 1).val, (i 1).isLt⟩ : Fin 64) :=
  funext fun a => match a with | ⟨0, _⟩ => rfl

/-- The mean the reference computes is `mean` of its biased array. -/
theorem mean_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 : (⟨S64, .f32⟩ : BufTy).Contents (Elt Ideal)) (j : S_.Idx) :
    val_main_v51 (F := Ideal) x0 x1 x2 x3 x4 j = mean (val_main_v49 (F := Ideal) x0 x1 x2 x3 x4) := by
  rw [val_main_v51_apply, val_main_v50_apply]
  generalize val_main_v49 (F := Ideal) x0 x1 x2 x3 x4 = o
  unfold mean
  generalize (∑ j : S100000x64.Idx, o j) = s
  rfl

/-- The reciprocal standard deviation the reference computes is `invStd` of its biased array. -/
theorem invStd_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 : (⟨S64, .f32⟩ : BufTy).Contents (Elt Ideal)) (j : S_.Idx) :
    val_main_v60 (F := Ideal) x0 x1 x2 x3 x4 j = invStd (val_main_v49 (F := Ideal) x0 x1 x2 x3 x4) := by
  have h : ∀ i : S100000x64.Idx, val_main_v54 (F := Ideal) x0 x1 x2 x3 x4 i
      = centred (val_main_v49 (F := Ideal) x0 x1 x2 x3 x4) (mean (val_main_v49 (F := Ideal) x0 x1 x2 x3 x4)) i := fun i => by
    rw [val_main_v54_apply, val_main_v53_apply, val_main_v52_apply, mean_eq]
    generalize val_main_v49 (F := Ideal) x0 x1 x2 x3 x4 = o
    rfl
  have hsum : (∑ i : S100000x64.Idx, val_main_v54 (F := Ideal) x0 x1 x2 x3 x4 i)
      = ∑ i : S100000x64.Idx, centred (val_main_v49 (F := Ideal) x0 x1 x2 x3 x4) (mean (val_main_v49 (F := Ideal) x0 x1 x2 x3 x4)) i :=
    Finset.sum_congr rfl fun i _ => h i
  rw [val_main_v60_apply, val_main_v59_apply, val_main_v56_apply, val_main_v55_apply, hsum]
  generalize val_main_v49 (F := Ideal) x0 x1 x2 x3 x4 = o
  unfold invStd
  generalize (∑ i : S100000x64.Idx, centred o (mean o) i) = s
  rfl

/-- The reference's result at an entry. -/
theorem entry (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 x5 x6 : (⟨S64, .f32⟩ : BufTy).Contents (Elt Ideal)) (i : S100000x64.Idx) :
    val_main_v69 (F := Ideal) x0 x1 x2 x3 x4 x5 x6 i = result (val_main_v49 (F := Ideal) x0 x1 x2 x3 x4) x5 x6 i := by
  rw [val_main_v69_apply, val_main_v68_apply, val_main_v65_apply, val_main_v62_apply, val_main_v58_apply,
    val_main_v57_apply, mean_eq, val_main_v61_apply, invStd_eq, val_main_v64_apply, val_main_v63_apply,
    val_main_v67_apply, val_main_v66_apply, val_main_call1_v0_apply, feature_idx, feature_idx']
  generalize val_main_v49 (F := Ideal) x0 x1 x2 x3 x4 = o
  rfl

end Cert.ReferenceIdeal.Whole

end
-- ==== Proof.Bridge.lean ====
/-
  The two programs compute one function.

  Write o for the reference's biased aggregate (100000 rows of 64 features).  The kernel works on the same numbers
  laid as 50000 rows of 128 lanes, feature f of row i sitting in lane (i mod 2)·64 + f of row i / 2:
    · its projection x·Wᵀ, block by block, is the reference's one matrix product, so the shared edge aggregation —
      never opened — gives the same aggregate;
    · the bias row doubled to 128 lanes adds b[q mod 64] to lane q, which is b[f]: the biased lane-dense array is o
      re-laid;
    · a re-laying is a bijection of the indices, so the sum of the lane-dense array, taken in five blocks from the
      zero word, is z + Σ o, and the mean is the reference's; likewise the centred sum of squares and the
      reciprocal standard deviation;
    · the last region normalises entry by entry with the scale and shift rows doubled the same way, and re-laying
      back returns, at (i, f), exactly the reference's max(((o − μ)·ρ)·γ[f] + β[f], z).
  No step uses more than associativity and commutativity of the extended reals' addition, so nothing here needs
  the inputs to be finite.
-/
import proofs.«170983_j88304527606467_2_alg».proof.Proof.Walk
import proofs.«170983_j88304527606467_2_alg».proof.Proof.BiasSum
import proofs.«170983_j88304527606467_2_alg».proof.Proof.SumSq
import proofs.«170983_j88304527606467_2_alg».proof.Proof.NormAct
import proofs.«170983_j88304527606467_2_alg».proof.Proof.RefWhole
import proofs.«170983_j88304527606467_2_alg».proof.Proof.RefAgg
import proofs.«170983_j88304527606467_2_alg».proof.Proof.LaneSums

noncomputable section

open Idealize.ShloMosaic Idealize.ShloMosaic.TcCoe Idealize.SL.Sem Idealize.ShloMosaic.ValueIdx

namespace Cert.KernelIdeal.Bridge

open Cert.KernelIdeal Cert.KernelIdeal.Gen
open Cert.ReferenceIdeal.Read (val_main_v3 val_main_v6 val_main_v8 val_main_v15 val_main_v33 val_main_v46 val_main_v47 val_main_v48 val_main_v49 val_main_v69)
open Cert.ReferenceIdeal.Whole (aggC zw nw ew mean centred invStd normEntry result)

variable (m : (ℓ : Loc nD τ sig) → Buf (Elt Ideal) ℓ) (ρ : Dev nD → PrngReg) (c : Dev nD)

/-! ## The projection and the aggregate -/

/-- The kernel's block-wise projection is the reference's matrix product. -/
theorem proj_eq : Walk.projected m c = val_main_v33 (F := Ideal) (m ((c : Thread nD τ).loc main_arg0)) (m ((c : Thread nD τ).loc main_arg3)) := by
  funext i
  rw [Cert.ReferenceIdeal.Read.val_main_v33_apply]
  unfold Walk.projected Cert.KernelIdeal.Projection.matProduct
  refine Finset.sum_congr rfl fun k _ => ?_
  have h1 : Cert.ReferenceIdeal.Read.lidx_main_v33 i k = ix2 (i 0) k :=
    funext fun a => match a with | ⟨0, _⟩ => rfl | ⟨1, _⟩ => rfl
  have h2 : Cert.ReferenceIdeal.Read.ridx_main_v33 i k = ix2 k (i 1) :=
    funext fun a => match a with | ⟨0, _⟩ => rfl | ⟨1, _⟩ => rfl
  rw [h1, h2]
  rfl

/-- The aggregate both programs reach. -/
def agg : S100000x64.Idx → EReal :=
  aggC (F := Ideal) (Walk.projected m c) (val_main_v3 (F := Ideal) (m ((c : Thread nD τ).loc main_arg1))) (val_main_v6 (F := Ideal) (m ((c : Thread nD τ).loc main_arg1)))
    (val_main_v8 (F := Ideal) (m ((c : Thread nD τ).loc main_arg2))) (val_main_v15 (F := Ideal) (m ((c : Thread nD τ).loc main_arg1)) (m ((c : Thread nD τ).loc main_arg2)))

theorem agg_eq : val_main_v46 (F := Ideal) (m ((c : Thread nD τ).loc main_arg0)) (m ((c : Thread nD τ).loc main_arg1)) (m ((c : Thread nD τ).loc main_arg2)) (m ((c : Thread nD τ).loc main_arg3)) = agg m c :=
  (Cert.ReferenceIdeal.Whole.agg_ref (m ((c : Thread nD τ).loc main_arg0)) (m ((c : Thread nD τ).loc main_arg1)) (m ((c : Thread nD τ).loc main_arg2)) (m ((c : Thread nD τ).loc main_arg3))).trans
    (congrArg (fun xw => aggC (F := Ideal) xw (val_main_v3 (F := Ideal) (m ((c : Thread nD τ).loc main_arg1))) (val_main_v6 (F := Ideal) (m ((c : Thread nD τ).loc main_arg1)))
      (val_main_v8 (F := Ideal) (m ((c : Thread nD τ).loc main_arg2))) (val_main_v15 (F := Ideal) (m ((c : Thread nD τ).loc main_arg1)) (m ((c : Thread nD τ).loc main_arg2)))) (proj_eq m c).symm)

/-- The reference's biased aggregate, over the kernel's launch arrays. -/
def o : S100000x64.Idx → EReal := val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem o_apply (i : S100000x64.Idx) : o m c i = agg m c i + ((m ((c : Thread nD τ).loc main_arg4)) : S64.Idx → EReal) (ix1 (⟨(i 1).val, (i 1).isLt⟩ : Fin 64)) := by
  unfold o
  rw [Cert.ReferenceIdeal.Read.val_main_v49_apply, agg_eq, Cert.ReferenceIdeal.Read.val_main_v48_apply,
    Cert.ReferenceIdeal.Read.val_main_v47_apply, Cert.ReferenceIdeal.Whole.feature_idx'']
  rfl

/-! ## The biased array, lane-dense -/

/-- A row doubled to 128 lanes and added to every row of a re-laid array is the row added feature-wise, re-laid. -/
theorem addRow_relaid (A : S100000x64.Idx → EReal) (b : S64.Idx → EReal)
    (hc : Shape.Concatenates ([(⟨S64, b⟩ : (s : Shape) × (s.Idx → EReal)), ⟨S64, b⟩].map (·.1)) S128 0) :
    Cert.KernelIdeal.BiasSum.addRow (shapeCast S50000x128 A shapeCasts_S100000x64_S50000x128)
        (shapeCast S1x128 (concatenate S128 0 [⟨S64, b⟩, ⟨S64, b⟩] hc) shapeCasts_S128_S1x128)
      = shapeCast S50000x128 (fun i => A i + b (ix1 (⟨(i 1).val, (i 1).isLt⟩ : Fin 64))) shapeCasts_S100000x64_S50000x128 := by
  funext j
  show A (Shape.reshapeEquiv _ j) + shapeCast S1x128 (concatenate S128 0 [⟨S64, b⟩, ⟨S64, b⟩] hc) shapeCasts_S128_S1x128 (ix2 (0 : Fin 1) (j 1))
    = A (Shape.reshapeEquiv _ j) + b (ix1 (⟨((Shape.reshapeEquiv _ j) 1).val, ((Shape.reshapeEquiv _ j) 1).isLt⟩ : Fin 64))
  refine congrArg (fun y : EReal => A (Shape.reshapeEquiv _ j) + y) ?_
  refine (Cert.LaneSums.doubled_row_lane b hc shapeCasts_S128_S1x128 (j 1)).trans ?_
  exact congrArg b (congrArg ix1 (Fin.ext (Cert.LaneSums.feature_of_lane _ j).symm))

/-- The kernel's biased lane-dense array is the reference's biased aggregate re-laid. -/
theorem biased_eq : Cert.KernelIdeal.BiasSum.biased (V5 m ρ) c = shapeCast S50000x128 (o m c) shapeCasts_S100000x64_S50000x128 := by
  unfold Cert.KernelIdeal.BiasSum.biased
  rw [Walk.v5_agg, Walk.v5_bias]
  refine (addRow_relaid (agg m c) (m ((c : Thread nD τ).loc main_arg4)) _).trans ?_
  exact congrArg (fun f => shapeCast S50000x128 f shapeCasts_S100000x64_S50000x128) (funext fun i => (o_apply m c i).symm)

/-! ## The mean and the reciprocal standard deviation -/

/-- The kernel's total, accumulated over the five blocks from the zero word, is z + Σ o. -/
theorem total_eq (y : S1x1.Idx) : (dat1 (V5 m ρ) c).arrAt 3 cfg1.N y = zw + ∑ i : S100000x64.Idx, o m c i := by
  rw [Cert.KernelIdeal.BiasSum.final_total, biased_eq]
  exact congrArg (fun s : EReal => zw + s) (Cert.LaneSums.sum_shapeCast (o m c) shapeCasts_S100000x64_S50000x128)

/-- The mean the third and fourth regions find is the reference's. -/
theorem mean_eq : (V7 m ρ c main_v57 : S1x1.Idx → EReal) (ix2 (0 : Fin 1) (0 : Fin 1)) = mean (o m c) := by
  rw [Walk.v7_mean]
  exact congrArg (fun s : EReal => FloatOps.hostDivf (F := Ideal) (φ := .f32) s nw) (total_eq m ρ c _)

/-- The squared distances from the mean, lane-dense, are the reference's re-laid. -/
theorem squares_eq : Cert.KernelIdeal.SumSq.squares (V7 m ρ) c
    = shapeCast S50000x128 (centred (o m c) (mean (o m c))) shapeCasts_S100000x64_S50000x128 := by
  unfold Cert.KernelIdeal.SumSq.squares
  rw [Walk.v7_biased, Cert.KernelIdeal.BiasSum.final_biased, biased_eq, mean_eq]
  rfl

/-- The kernel's centred sum of squares is z + Σ (o − μ)². -/
theorem sq_total_eq (y : S1x1.Idx) : (dat2 (V7 m ρ) c).arrAt 2 cfg2.N y
    = zw + ∑ i : S100000x64.Idx, centred (o m c) (mean (o m c)) i := by
  rw [Cert.KernelIdeal.SumSq.final_total, squares_eq]
  exact congrArg (fun s : EReal => zw + s) (Cert.LaneSums.sum_shapeCast _ shapeCasts_S100000x64_S50000x128)

/-- The reciprocal standard deviation the fourth region finds is the reference's. -/
theorem inv_eq : (V9 m ρ c main_v63 : S1x1.Idx → EReal) (ix2 (0 : Fin 1) (0 : Fin 1)) = invStd (o m c) := by
  rw [Walk.v9_inv]
  exact congrArg (fun s : EReal => FloatOps.hostUnary (F := Ideal) (φ := .f32) .rsqrt (FloatOps.hostDivf (F := Ideal) (φ := .f32) s nw + ew))
    (sq_total_eq m ρ c _)

/-! ## The result -/

/-- A doubled row read at the lane an entry (i, f) is re-laid to: the row's entry f. -/
theorem doubled_at (b : S64.Idx → EReal)
    (hc : Shape.Concatenates ([(⟨S64, b⟩ : (s : Shape) × (s.Idx → EReal)), ⟨S64, b⟩].map (·.1)) S128 0)
    (i : S100000x64.Idx) (q : Fin 128) (hq : q.val = ((Shape.reshapeEquiv shapeCasts_S50000x128_S100000x64 i) 1).val) :
    shapeCast S1x128 (concatenate S128 0 [⟨S64, b⟩, ⟨S64, b⟩] hc) shapeCasts_S128_S1x128 (ix2 (0 : Fin 1) q)
      = b (ix1 (⟨(i 1).val, (i 1).isLt⟩ : Fin 64)) :=
  (Cert.LaneSums.doubled_row_lane b hc shapeCasts_S128_S1x128 q).trans
    (congrArg b (congrArg ix1 (Fin.ext (by
      show q.val % 64 = (i 1).val
      rw [hq]; exact Cert.LaneSums.lane_of_feature _ i))))

/-- The kernel's result buffer, entry by entry, is the reference's result over `o`. -/
theorem out_eq (i : S100000x64.Idx) :
    (W11 m ρ c (Proc.devRef .tc main_v65) : S100000x64.Idx → EReal) i = result (o m c) (m ((c : Thread nD τ).loc main_arg5)) (m ((c : Thread nD τ).loc main_arg6)) i := by
  rw [Walk.result_buf, Cert.KernelIdeal.NormAct.final_fun]
  show Cert.KernelIdeal.NormAct.normAct (V9 m ρ c main_v54_0) (V9 m ρ c main_v57) (V9 m ρ c main_v63) (V9 m ρ c main_v51) (V9 m ρ c main_v53)
    (Shape.reshapeEquiv shapeCasts_S50000x128_S100000x64 i) = _
  rw [Walk.v9_biased, Cert.KernelIdeal.BiasSum.final_biased, biased_eq, Walk.v9_mean, Walk.v9_scale, Walk.v9_shift]
  show normEntry (shapeCast S50000x128 (o m c) shapeCasts_S100000x64_S50000x128 (Shape.reshapeEquiv shapeCasts_S50000x128_S100000x64 i))
      ((V7 m ρ c main_v57 : S1x1.Idx → EReal) (ix2 (0 : Fin 1) (0 : Fin 1))) ((V9 m ρ c main_v63 : S1x1.Idx → EReal) (ix2 (0 : Fin 1) (0 : Fin 1))) _ _
    = normEntry (o m c i) (mean (o m c)) (invStd (o m c)) _ _
  rw [mean_eq, inv_eq]
  refine (congrArg₂ (fun g b : EReal => normEntry _ (mean (o m c)) (invStd (o m c)) g b)
    (doubled_at (m ((c : Thread nD τ).loc main_arg5)) _ i _ rfl) (doubled_at (m ((c : Thread nD τ).loc main_arg6)) _ i _ rfl)).trans ?_
  have hx : shapeCast S50000x128 (o m c) shapeCasts_S100000x64_S50000x128 (Shape.reshapeEquiv shapeCasts_S50000x128_S100000x64 i) = o m c i :=
    congrFun (shapeCast_shapeCast (o m c) shapeCasts_S100000x64_S50000x128 shapeCasts_S50000x128_S100000x64) i
  rw [hx]

/-- So the result buffer holds the reference's value of the same launch arrays. -/
theorem out_ref : (W11 m ρ c (Proc.devRef .tc main_v65) : S100000x64.Idx → EReal)
    = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  funext fun i => (out_eq m ρ c i).trans (Cert.ReferenceIdeal.Whole.entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i).symm

end Cert.KernelIdeal.Bridge

end
-- ==== Proof.lean ====
/-
  The certificate of the graph-convolution layer: the Pallas kernel (a row-blocked projection x·Wᵀ, the edge
  aggregation with symmetric normalisation on the host, then three lane-dense passes — bias and total, centred sum of
  squares, normalisation with scale, shift and clamp at zero) against the jnp reference.

  The three frames: the two kernels' are the generated frame certificates; the reference has no kernel, and its
  frame is its run with the result dropped.  The idealization rewrote nothing, so the kernel's idealization is its
  own text read at the exact reals.  At the exact reals the two programs end with equal results: the kernel's result
  buffer is read through its eleven segments (the run with the result named, the walk through the boundary
  valuations, one value lemma per region) and shown, entry by entry, to be the reference's value of the same launch
  arrays (the bridge).  The inputs' finiteness is never used.
-/
import proofs.«170983_j88304527606467_2_alg».proof.Defs
import proofs.«170983_j88304527606467_2_alg».proof.Proof.Gen.Kernel
import proofs.«170983_j88304527606467_2_alg».proof.Proof.Gen.Kernel.Skeleton
import proofs.«170983_j88304527606467_2_alg».proof.Proof.Gen.Kernel.Launch
import proofs.«170983_j88304527606467_2_alg».proof.Proof.Gen.Kernel.Points
import proofs.«170983_j88304527606467_2_alg».proof.Proof.Gen.Kernel.Frame
import proofs.«170983_j88304527606467_2_alg».proof.Proof.Gen.KernelIdeal
import proofs.«170983_j88304527606467_2_alg».proof.Proof.Gen.KernelIdeal.Skeleton
import proofs.«170983_j88304527606467_2_alg».proof.Proof.Gen.KernelIdeal.Launch
import proofs.«170983_j88304527606467_2_alg».proof.Proof.Gen.KernelIdeal.Points
import proofs.«170983_j88304527606467_2_alg».proof.Proof.Gen.KernelIdeal.Frame
import proofs.«170983_j88304527606467_2_alg».proof.Proof.Gen.ReferenceIdeal
import proofs.«170983_j88304527606467_2_alg».proof.Proof.Gen.Pre_finite_inputs
import proofs.«170983_j88304527606467_2_alg».proof.Proof.Gen.ReferenceIdeal.Run
import proofs.«170983_j88304527606467_2_alg».proof.Proof.Gen.ReferenceIdeal.Read
import proofs.«170983_j88304527606467_2_alg».proof.Proof.KernelRun
import proofs.«170983_j88304527606467_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the exact reals, from memories agreeing on the seven arguments, both programs run and end with the same
    result array: the kernel's result buffer holds the reference's value of the launch arrays. -/
theorem algebraic : Cert.algebraic_KernelIdeal_ReferenceIdeal := by
  intro m ρ m' ρ' _ hagree
  refine ⟨fun c => Cert.KernelIdeal.Gen.W11 m ρ c (Proc.devRef .tc Cert.KernelIdeal.main_v65),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2.1, (hagree c).2.2.2.1,
    (hagree c).2.2.2.2.1, (hagree c).2.2.2.2.2.1, (hagree c).2.2.2.2.2.2]
  exact (Cert.KernelIdeal.Bridge.out_ref m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
